-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S4x4096x4096 : Shape := ⟨3, ![4, 4096, 4096]⟩
abbrev S4x4096x1 : Shape := ⟨3, ![4, 4096, 1]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S4x4096x1 : S_.BroadcastsInDim S4x4096x1 (![] : Fin 0 → Fin S4x4096x1.rank)
  reducesTo_S4x4096x1_S_d0_1_2 : S4x4096x1.ReducesTo [0, 1, 2] S_

variable [Facts]

def fn {F : FTy → Type} [FloatOps F] (main_arg0 : FVec F S4x4096x256 .f32) (main_arg1 : FVec F S4x4096x4096 .f32) (main_arg2 : FVec F S4x4096x1 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S4x4096x1 .f32 := Host.absf main_arg2
  let main_cst_2 : FVec F S_ .f32 := constant S_ .f32 0x7F800000#32
  let main_v10 : FVec F S4x4096x1 .f32 := broadcastInDim S4x4096x1 ![] bcast_S_S4x4096x1 main_cst_2
  let main_v11 : IVec S4x4096x1 1 := cmpf .olt main_v9 main_v10
  let main_c_3 : IVec S_ 1 := constantI S_ 1 1#1
  let main_v12 : IVec S_ 1 := (fun x v => Host.reduce IntOp.andi x v reducesTo_S4x4096x1_S_d0_1_2 h_S_) main_v11 main_c_3
  let main_v13 : IVec S_ 1 := andi main_v8 main_v12
  main_v13
-- ==== Kernel.lean ====
abbrev S4x4096x256 : Shape := ⟨3, ![4, 4096, 256]⟩
abbrev S4x4096x4096 : Shape := ⟨3, ![4, 4096, 4096]⟩
abbrev S4x4096x1 : Shape := ⟨3, ![4, 4096, 1]⟩
abbrev S4x1x4096 : Shape := ⟨3, ![4, 1, 4096]⟩
abbrev S1x1024x256 : Shape := ⟨3, ![1, 1024, 256]⟩
abbrev S1x1024x2048 : Shape := ⟨3, ![1, 1024, 2048]⟩
abbrev S1x1x4096 : Shape := ⟨3, ![1, 1, 4096]⟩
abbrev S1x4096x256 : Shape := ⟨3, ![1, 4096, 256]⟩
abbrev S1024x256 : Shape := ⟨2, ![1024, 256]⟩
abbrev S1024x2048 : Shape := ⟨2, ![1024, 2048]⟩
abbrev S2048x256 : Shape := ⟨2, ![2048, 256]⟩
abbrev S4096 : Shape := ⟨1, ![4096]⟩
abbrev S4096x1 : Shape := ⟨2, ![4096, 1]⟩
abbrev S2048x1 : Shape := ⟨2, ![2048, 1]⟩
abbrev S1x2048x256 : Shape := ⟨3, ![1, 2048, 256]⟩

abbrev nBuf : Space → Nat
  | .hbm => 5
  | .vmem => 10
  | .smem => 0
  | _ => 0

abbrev bufTy : (tb : Table) → Fin (tcTables nBuf tb) → BufTy
  | .hbm, ⟨0, _⟩ => ⟨S4x4096x256, .f32⟩
  | .hbm, ⟨1, _⟩ => ⟨S4x4096x4096, .f32⟩
  | .hbm, ⟨2, _⟩ => ⟨S4x4096x1, .f32⟩
  | .hbm, ⟨3, _⟩ => ⟨S4x1x4096, .f32⟩
  | .hbm, ⟨4, _⟩ => ⟨S4x4096x256, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1024x2048, .f32⟩
  | .local _ .vmem, ⟨5, _⟩ => ⟨S1x1024x2048, .f32⟩
  | .local _ .vmem, ⟨6, _⟩ => ⟨S1x1x4096, .f32⟩
  | .local _ .vmem, ⟨7, _⟩ => ⟨S1x1x4096, .f32⟩
  | .local _ .vmem, ⟨8, _⟩ => ⟨S1x4096x256, .f32⟩
  | .local _ .vmem, ⟨9, _⟩ => ⟨S1x4096x256, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v8 : BitVec 1 := Scalar.cmpi .eq arg1 c0_i32
  let v9 : BitVec 32 := Scalar.extui v8
  let c0_i32_9 : BitVec 32 := 0#32
  let v10 : BitVec 1 := Scalar.cmpi .ne v9 c0_i32_9
  v10

def k0_cond2 (i : grid0.Coords) : BitVec 1 :=
  let arg1 : BitVec 32 := BitVec.ofNat 32 (i 1).val
  let c0_i32_10 : BitVec 32 := 0#32
  let v11 : BitVec 1 := Scalar.cmpi .sgt arg1 c0_i32_10
  let v12 : BitVec 32 := Scalar.extui v11
  let c0_i32_11 : BitVec 32 := 0#32
  let v13 : BitVec 1 := Scalar.cmpi .ne v12 c0_i32_11
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4x4096x1_S4x1x4096 : S4x4096x1.ShapeCasts S4x1x4096
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  shapeCasts_S4096_S4096x1 : S4096.ShapeCasts S4096x1
  slices_S4096x1_o0_0_S2048x1 : S4096x1.Slices ![0, 0] S2048x1
  broadcasts_S2048x1_S2048x256 : S2048x1.Broadcasts S2048x256
  inb_S1x4096x256_S1x2048x256_0_0_0 : ∀ a, (![0, 0, 0] : Fin 3 → Nat) a + S1x2048x256.size a ≤ S1x4096x256.size a
  h_S1x2048x256 : 0 < S1x2048x256.numel
  shapeCasts_S1x2048x256_S2048x256 : S1x2048x256.ShapeCasts S2048x256
  shapeCasts_S2048x256_S1x2048x256 : S2048x256.ShapeCasts S1x2048x256
  slices_S4096x1_o2048_0_S2048x1 : S4096x1.Slices ![2048, 0] S2048x1
  inb_S1x4096x256_S1x2048x256_0_2048_0 : ∀ a, (![0, 2048, 0] : Fin 3 → Nat) a + S1x2048x256.size a ≤ S1x4096x256.size a
  dot_S1024x2048_S1024x256_S2048x256_0_0_1_1_n_n_wf : DotDims.WF S1024x2048 S1024x256 S2048x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S4x4096x256.size a
  hwx0_0 : ∀ i : grid0.Coords, EltTy.bits .f32 = 32 ∨ (Rect.block (s := S4x4096x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S4x4096x4096.size a
  hwx0_1 : ∀ i : grid0.Coords, EltTy.bits .f32 = 32 ∨ (Rect.block (s := S4x4096x4096) S1x1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2048.size a ≤ S4x4096x4096.size a
  hwx0_2 : ∀ i : grid0.Coords, EltTy.bits .f32 = 32 ∨ (Rect.block (s := S4x4096x4096) S1x1024x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S4x1x4096.size a
  hwx0_3 : ∀ i : grid0.Coords, EltTy.bits .f32 = 32 ∨ (Rect.block (s := S4x1x4096) S1x1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4096x256.size a ≤ S4x4096x256.size a
  hwx0_4 : ∀ i : grid0.Coords, EltTy.bits .f32 = 32 ∨ (Rect.block (s := S4x4096x256) S1x4096x256.size (cc0_transform_4 i) (hinb0_4 i)).WholeWords (EltTy.packing .f32)

variable [Facts₀]

def dot_S1024x2048_S1024x256_S2048x256_0_0_1_1_n_n : DotDims S1024x2048 S1024x256 S2048x256 where
  lhsContracting := [0]
  rhsContracting := [0]
  lhsNonContracting := [1]
  rhsNonContracting := [1]
  lhsBatch := []
  rhsBatch := []
  wf := dot_S1024x2048_S1024x256_S2048x256_0_0_1_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x4096x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) | ⟨_ + 5, h⟩ => absurd h (Nat.not_lt.2 (Nat.le_add_left _ _))

class Facts : Prop extends Facts₀ where

variable [Facts]
-- ==== ReferenceIdeal.lean ====
abbrev S4x4096x256 : Shape := ⟨3, ![4, 4096, 256]⟩
abbrev S4x4096x4096 : Shape := ⟨3, ![4, 4096, 4096]⟩
abbrev S4x4096x1 : Shape := ⟨3, ![4, 4096, 1]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x4096, .f32⟩
  | .hbm, ⟨2, _⟩ => ⟨S4x4096x1, .f32⟩
  | .hbm, ⟨3, _⟩ => ⟨S4x4096x256, .f32⟩
  | .hbm, ⟨4, _⟩ => ⟨S4x4096x256, .f32⟩
  | .hbm, ⟨5, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S4x4096x1_S4x4096x256_0_1_2 : S4x4096x1.BroadcastsInDim S4x4096x256 (![0, 1, 2] : Fin 3 → Fin S4x4096x256.rank)
  dot_S4x4096x4096_S4x4096x256_S4x4096x256_1_1_2_2_0_0_wf : DotDims.WF S4x4096x4096 S4x4096x256 S4x4096x256 [1] [1] [2] [2] [0] [0]

variable [Facts₀]

def dot_S4x4096x4096_S4x4096x256_S4x4096x256_1_1_2_2_0_0 : DotDims S4x4096x4096 S4x4096x256 S4x4096x256 where
  lhsContracting := [1]
  rhsContracting := [1]
  lhsNonContracting := [2]
  rhsNonContracting := [2]
  lhsBatch := [0]
  rhsBatch := [0]
  wf := dot_S4x4096x4096_S4x4096x256_S4x4096x256_1_1_2_2_0_0_wf

class Facts : Prop extends Facts₀ where

variable [Facts]
-- ==== Proof.Kernel.Runs.lean ====
/-
  The kernel's launch, up to its body: what the TensorCore's buffers hold when the region is
  entered (the bias array recast from [4, 4096, 1] to [4, 1, 4096] by the one host operation before it, the
  three argument arrays untouched), the block of each window's array at a grid point, that each of the four
  input windows' staging buffers holds that block whenever the body runs (fetched there or not: the weight
  and input slabs move with every point, the bias row only with the group), and the two conditions of the
  body decided over the 4 x 4 grid: the first holds exactly at the first contraction step of a group
  (point ≡ 0 mod 4), the second exactly at the later ones.
-/
import proofs.«106949_g26190710571470_cont_sun_m_625_26_alg».proof.Proof.Gen.Kernel.Launch
import proofs.«106949_g26190710571470_cont_sun_m_625_26_alg».proof.Proof.Gen.Kernel.Skeleton
import proofs.«106949_g26190710571470_cont_sun_m_625_26_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the region's entry -/

/-- Core `c`'s TensorCore buffers when the region is entered: the launch contents after the host recast of the bias. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region: the recast, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The recast writes none of the three argument arrays: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not, for any proof data
    whose array is the entry contents and whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions over the grid -/

/-- The first condition (the contraction step is the group's first) holds at the points ≡ 0 (mod 4); -/
theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)
/-- the second (a later step) at all the others. -/
theorem hcond2 : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)
/-- So the output window is never idle: at every point one of the two branches stores into it. -/
theorem live4 : ∀ i : grid0.Coords, cfg0.idle 4 i = false :=
  (by decide +kernel : ∀ i : grid0.Coords, idle0 4 i = false)

/-! ## The staging memrefs at a point -/

abbrev ms0 (t : Fin cfg0.N) : Memref sig .tc .vmem S1x1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x4096x256 .f32 := win0_4.stage (cfg0.slots t 4)
abbrev hs4 (t : Fin cfg0.N) : (ms4 t).IsWhole := hstage0_4 ((cfg0.slots t 4).cast nbuf0_4)
/-- One staging buffer of the output window, through which its contents are stated. -/
abbrev VO4 : View sig .tc .vmem S1x4096x256 .f32 := (Memref.whole cc0_stg4_0 : Memref sig .tc .vmem S1x4096x256 .f32).view

end Cert.Kernel.Fr

end
-- ==== Proof.Kernel.RunA.lean ====
/-
  The body at a group's FIRST contraction step (the first condition holds, the second fails), on any whole
  staging memrefs: from the input slab, the two half-slabs of the weights and the bias row at their contents,
  and the output block at anything, it runs to the end leaving the inputs as they were and the output block
  overwritten by two stores — rows 0..2047 and rows 2048..4095 — of the two products plus the bias halves.
  The pieces written are found by running the body.
-/
import proofs.«106949_g26190710571470_cont_sun_m_625_26_alg».proof.Proof.Kernel.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the first-step body leaves in the output block, with the proof that the body runs to them. -/
noncomputable def kernelRunA (c : Dev nD) (i : grid0.Coords)
    (arg2 : Memref sig .tc .vmem S1x1024x256 .f32) (harg2 : arg2.IsWhole)
    (arg3 : Memref sig .tc .vmem S1x1024x2048 .f32) (harg3 : arg3.IsWhole)
    (arg4 : Memref sig .tc .vmem S1x1024x2048 .f32) (harg4 : arg4.IsWhole)
    (arg5 : Memref sig .tc .vmem S1x1x4096 .f32) (harg5 : arg5.IsWhole)
    (arg6 : Memref sig .tc .vmem S1x4096x256 .f32) (harg6 : arg6.IsWhole)
    (hc1 : k0_cond1 i = 1#1) (hc2 : ¬ k0_cond2 i = 1#1)
    (x0 : Vec F S1x1024x256 .f32) (x1 : Vec F S1x1024x2048 .f32) (x2 : Vec F S1x1024x2048 .f32) (x3 : Vec F S1x1x4096 .f32) :
    { L4 : List (View.Piece (Elt F) S1x4096x256 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L4)) -∗ K ⟨⟩))
          ⊢ wp frame (wpE (defs₀ (F := F)) Variants.none c none) E (cc0__body i arg2 harg2 arg3 harg3 arg4 harg4 arg5 harg5 arg6 harg6) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1
    obtain rfl := harg4.eq_unread hf2; obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Fr

end
-- ==== Proof.Kernel.RunB.lean ====
/-
  The body at a LATER contraction step of a group (the first condition fails, the second holds), on any whole
  staging memrefs: from the input slab and the two half-slabs of the weights at their contents, the bias row at
  its contents (unread here) and the output block at its running contents, it runs to the end leaving the
  inputs as they were and the output block overwritten by two stores — each half of the running block plus the
  step's product for that half. The pieces written are found by running the body.
-/
import proofs.«106949_g26190710571470_cont_sun_m_625_26_alg».proof.Proof.Kernel.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces a later-step body leaves in the output block, with the proof that the body runs to them. -/
noncomputable def kernelRunB (c : Dev nD) (i : grid0.Coords)
    (arg2 : Memref sig .tc .vmem S1x1024x256 .f32) (harg2 : arg2.IsWhole)
    (arg3 : Memref sig .tc .vmem S1x1024x2048 .f32) (harg3 : arg3.IsWhole)
    (arg4 : Memref sig .tc .vmem S1x1024x2048 .f32) (harg4 : arg4.IsWhole)
    (arg5 : Memref sig .tc .vmem S1x1x4096 .f32) (harg5 : arg5.IsWhole)
    (arg6 : Memref sig .tc .vmem S1x4096x256 .f32) (harg6 : arg6.IsWhole)
    (hc1 : ¬ k0_cond1 i = 1#1) (hc2 : k0_cond2 i = 1#1)
    (x0 : Vec F S1x1024x256 .f32) (x1 : Vec F S1x1024x2048 .f32) (x2 : Vec F S1x1024x2048 .f32) (x3 : Vec F S1x1x4096 .f32)
    (xo : Vec F S1x4096x256 .f32) :
    { L4 : List (View.Piece (Elt F) S1x4096x256 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xo
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L4)) -∗ K ⟨⟩))
          ⊢ wp frame (wpE (defs₀ (F := F)) Variants.none c none) E (cc0__body i arg2 harg2 arg3 harg3 arg4 harg4 arg5 harg5 arg6 harg6) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3
    obtain rfl := harg6.eq_unread hf4
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Fr

end
-- ==== Proof.Kernel.Data.lean ====
/-
  What the output block holds after each grid point, and the pipeline's proof data.
  At a group's first contraction step the body's two stores tile the [1, 4096, 256] block (rows 0..2047 and
  2048..4095), so the block afterwards is those pieces whatever it held; at a later step the same two
  rectangles are overwritten with the running block plus the step's products. By recursion on the point this
  gives the block after every point (the running sum of the group's products so far, plus the bias). The
  proof data: every array as the region finds it; each input's buffer left at its block; the output's at the
  recursion's value. The weight array is read through TWO windows (its left and right halves of the output
  features), so its buffer's full share is dealt to them as its left and right halves.
-/
import proofs.«106949_g26190710571470_cont_sun_m_625_26_alg».proof.Proof.Kernel.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first-step pieces tile the output block, so they cover it. -/
theorem coverA (c : Dev nD) (i : grid0.Coords) (arg2 : Memref sig .tc .vmem S1x1024x256 .f32) (harg2 : arg2.IsWhole) (arg3 : Memref sig .tc .vmem S1x1024x2048 .f32) (harg3 : arg3.IsWhole) (arg4 : Memref sig .tc .vmem S1x1024x2048 .f32) (harg4 : arg4.IsWhole) (arg5 : Memref sig .tc .vmem S1x1x4096 .f32) (harg5 : arg5.IsWhole) (arg6 : Memref sig .tc .vmem S1x4096x256 .f32) (harg6 : arg6.IsWhole)
    (hc1 : k0_cond1 i = 1#1) (hc2 : ¬ k0_cond2 i = 1#1) (x0 : Vec F S1x1024x256 .f32) (x1 : Vec F S1x1024x2048 .f32) (x2 : Vec F S1x1024x2048 .f32) (x3 : Vec F S1x1x4096 .f32) (y : S1x4096x256.Idx) :
    ∃ pc ∈ (kernelRunA c i arg2 harg2 arg3 harg3 arg4 harg4 arg5 harg5 arg6 harg6 hc1 hc2 x0 x1 x2 x3).1, y ∈ pc.1.set :=
  View.cover_of_tiledL (kernelRunA c i arg2 harg2 arg3 harg3 arg4 harg4 arg5 harg5 arg6 harg6 hc1 hc2 x0 x1 x2 x3).1 S1x2048x256.size (by sl_kernel_rfl) y

/-- What a first step leaves in the output block: its pieces read back. -/
def outA (c : Dev nD) (i : grid0.Coords) (arg2 : Memref sig .tc .vmem S1x1024x256 .f32) (harg2 : arg2.IsWhole) (arg3 : Memref sig .tc .vmem S1x1024x2048 .f32) (harg3 : arg3.IsWhole) (arg4 : Memref sig .tc .vmem S1x1024x2048 .f32) (harg4 : arg4.IsWhole) (arg5 : Memref sig .tc .vmem S1x1x4096 .f32) (harg5 : arg5.IsWhole) (arg6 : Memref sig .tc .vmem S1x4096x256 .f32) (harg6 : arg6.IsWhole)
    (hc1 : k0_cond1 i = 1#1) (hc2 : ¬ k0_cond2 i = 1#1) (x0 : Vec F S1x1024x256 .f32) (x1 : Vec F S1x1024x2048 .f32) (x2 : Vec F S1x1024x2048 .f32) (x3 : Vec F S1x1x4096 .f32) : Vec F S1x4096x256 .f32 :=
  VO4.read (Elt F) (VO4.writes (Elt F) VO4.junk (kernelRunA c i arg2 harg2 arg3 harg3 arg4 harg4 arg5 harg5 arg6 harg6 hc1 hc2 x0 x1 x2 x3).1)

/-- A later step's pieces tile the output block too. -/
theorem coverB (c : Dev nD) (i : grid0.Coords) (arg2 : Memref sig .tc .vmem S1x1024x256 .f32) (harg2 : arg2.IsWhole) (arg3 : Memref sig .tc .vmem S1x1024x2048 .f32) (harg3 : arg3.IsWhole) (arg4 : Memref sig .tc .vmem S1x1024x2048 .f32) (harg4 : arg4.IsWhole) (arg5 : Memref sig .tc .vmem S1x1x4096 .f32) (harg5 : arg5.IsWhole) (arg6 : Memref sig .tc .vmem S1x4096x256 .f32) (harg6 : arg6.IsWhole)
    (hc1 : ¬ k0_cond1 i = 1#1) (hc2 : k0_cond2 i = 1#1) (x0 : Vec F S1x1024x256 .f32) (x1 : Vec F S1x1024x2048 .f32) (x2 : Vec F S1x1024x2048 .f32) (x3 : Vec F S1x1x4096 .f32) (xo : Vec F S1x4096x256 .f32) (y : S1x4096x256.Idx) :
    ∃ pc ∈ (kernelRunB c i arg2 harg2 arg3 harg3 arg4 harg4 arg5 harg5 arg6 harg6 hc1 hc2 x0 x1 x2 x3 xo).1, y ∈ pc.1.set :=
  View.cover_of_tiledL (kernelRunB c i arg2 harg2 arg3 harg3 arg4 harg4 arg5 harg5 arg6 harg6 hc1 hc2 x0 x1 x2 x3 xo).1 S1x2048x256.size (by sl_kernel_rfl) y

/-- What a later step leaves in the output block, from the running block `xo`. -/
def outB (c : Dev nD) (i : grid0.Coords) (arg2 : Memref sig .tc .vmem S1x1024x256 .f32) (harg2 : arg2.IsWhole) (arg3 : Memref sig .tc .vmem S1x1024x2048 .f32) (harg3 : arg3.IsWhole) (arg4 : Memref sig .tc .vmem S1x1024x2048 .f32) (harg4 : arg4.IsWhole) (arg5 : Memref sig .tc .vmem S1x1x4096 .f32) (harg5 : arg5.IsWhole) (arg6 : Memref sig .tc .vmem S1x4096x256 .f32) (harg6 : arg6.IsWhole)
    (hc1 : ¬ k0_cond1 i = 1#1) (hc2 : k0_cond2 i = 1#1) (x0 : Vec F S1x1024x256 .f32) (x1 : Vec F S1x1024x2048 .f32) (x2 : Vec F S1x1024x2048 .f32) (x3 : Vec F S1x1x4096 .f32) (xo : Vec F S1x4096x256 .f32) : Vec F S1x4096x256 .f32 :=
  VO4.read (Elt F) (VO4.writes (Elt F) VO4.junk (kernelRunB c i arg2 harg2 arg3 harg3 arg4 harg4 arg5 harg5 arg6 harg6 hc1 hc2 x0 x1 x2 x3 xo).1)

/-! ## The output block after each point -/

/-- The output block after the body at position `n`: a first step's pieces at the points ≡ 0 (mod 4), else a later
    step's over what position `n - 1` left. -/
def outsAt (c : Dev nD) : (n : ℕ) → n < cfg0.N → Vec F S1x4096x256 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((hcond1 ⟨0, hn⟩).mpr (Nat.zero_mod _)) (fun h => (hcond2 ⟨0, hn⟩).mp h (Nat.zero_mod _)) (iblk m c 0 ⟨0, hn⟩) (iblk m c 1 ⟨0, hn⟩) (iblk m c 2 ⟨0, hn⟩) (iblk m c 3 ⟨0, hn⟩)
  | n + 1, hn =>
    if h0 : (n + 1) % 4 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((hcond1 ⟨n + 1, hn⟩).mpr h0) (fun h => (hcond2 ⟨n + 1, hn⟩).mp h h0) (iblk m c 0 ⟨n + 1, hn⟩) (iblk m c 1 ⟨n + 1, hn⟩) (iblk m c 2 ⟨n + 1, hn⟩) (iblk m c 3 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((hcond1 ⟨n + 1, hn⟩).mp h)) ((hcond2 ⟨n + 1, hn⟩).mpr h0) (iblk m c 0 ⟨n + 1, hn⟩) (iblk m c 1 ⟨n + 1, hn⟩) (iblk m c 2 ⟨n + 1, hn⟩) (iblk m c 3 ⟨n + 1, hn⟩) (outsAt c n (Nat.lt_of_succ_lt hn))

theorem outsAt_A (c : Dev nD) (t : Fin cfg0.N) (h0 : t.val % 4 = 0) :
    outsAt m c t.val t.isLt = outA c (grid0.coords t) (ms0 t) (hs0 t) (ms1 t) (hs1 t) (ms2 t) (hs2 t) (ms3 t) (hs3 t) (ms4 t) (hs4 t) ((hcond1 t).mpr h0) (fun h => (hcond2 t).mp h h0) (iblk m c 0 t) (iblk m c 1 t) (iblk m c 2 t) (iblk m c 3 t) := by
  obtain ⟨n, hn⟩ := t
  cases n with
  | zero => exact rfl
  | succ n => exact (dif_pos h0).trans rfl

theorem outsAt_B (c : Dev nD) (t : Fin cfg0.N) (h0 : ¬t.val % 4 = 0) :
    outsAt m c t.val t.isLt = outB c (grid0.coords t) (ms0 t) (hs0 t) (ms1 t) (hs1 t) (ms2 t) (hs2 t) (ms3 t) (hs3 t) (ms4 t) (hs4 t) (fun h => h0 ((hcond1 t).mp h)) ((hcond2 t).mpr h0) (iblk m c 0 t) (iblk m c 1 t) (iblk m c 2 t) (iblk m c 3 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`. The invariant between points is the core's scoped buffers outside the staging
    buffers (there are none); nothing is owed. The weight array, read by windows 1 and 2, is held by them at the
    two halves of its full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t.val t.isLt
  Φ _ := Pipeline.scopedRest (Ix := Unit) (Name := ℕ) (U := UR sig nD τ) (Lvl := ℕ) (Val := Elt F) spec0 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outsAt m c t.val t.isLt := by dsimp only [dats]

/-- Each input's staging buffer holds its block at every point. -/
theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d

/-- At a later step the output's staging buffer holds what the step before left: the block is written back only
    after a group's last step (points ≡ 3 mod 4), never just before a later step. -/
theorem before4_B (c : Dev nD) (t : Fin cfg0.N) (h0 : ¬t.val % 4 = 0) (d) :
    (dats m 0 c).before 4 t d = outsAt m c (t.val - 1) (Nat.lt_of_le_of_lt (Nat.sub_le _ _) t.isLt) := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    live4 (fun _ _ => rfl)]
  dsimp only [dats]

end Cert.Kernel.Fr

end
-- ==== Proof.Kernel.Body.lean ====
/-
  The body obligation of the pipeline, at a generic grid point. The four inputs' staging buffers hold their
  blocks; the point is a group's first contraction step or a later one (decided by the closed forms); in the
  first case the output block may hold anything and ends as the first-step pieces, in the second it holds what
  the step before left and ends as the later-step pieces over that. The invariant passes through unread and
  the core owes nothing throughout.
-/
import proofs.«106949_g26190710571470_cont_sun_m_625_26_alg».proof.Proof.Kernel.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  have hN : t.val < 16 := lt_of_lt_of_eq t.isLt (show cfg0.N = 16 from N_0)
  by_cases h0 : t.val % 4 = 0
  · rw [outsAt_A m c t h0]
    unfold outA
    iintro ⟨HΦ, Ho, ⟨%d0, H0⟩, ⟨%d1, H1⟩, ⟨%d2, H2⟩, ⟨%d3, H3⟩, ⟨%d4, H4⟩⟩
    iapply ((kernelRunA c (grid0.coords t) _ _ _ _ _ _ _ _ _ _ ((hcond1 t).mpr h0) (fun h => (hcond2 t).mp h h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverA c _ _ _ _ _ _ _ _ _ _ _ _ _ _ _ _ _)
  · rw [outsAt_B m c t h0]
    simp only [before4_B m c t h0]
    unfold outB
    iintro ⟨HΦ, Ho, ⟨%d0, H0⟩, ⟨%d1, H1⟩, ⟨%d2, H2⟩, ⟨%d3, H3⟩, ⟨%d4, H4⟩⟩
    iapply ((kernelRunB c (grid0.coords t) _ _ _ _ _ _ _ _ _ _ (fun h => h0 ((hcond1 t).mp h)) ((hcond2 t).mpr h0) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverB c _ _ _ _ _ _ _ _ _ _ _ _ _ _ _ _ _ _)

/-- The body obligation at every point: the output window is live everywhere, so what the body leaves
    in it is always the recursion's value. -/
theorem body_obligation (c : Dev nD) : BodyObligation (dats (F := F) m 0 c) (defs₀ (F := F)) Variants.none () Set.univ := fun t => by
  rw [bigSep_W0, bigSep_W0]
  rw [show cfg0.idle 4 (cfg0.grid.coords t) = false from live4 _]
  exact sound_body m c t

end Cert.Kernel.Fr

end
-- ==== Proof.Kernel.Run.lean ====
/-
  The run of the kernel's program. The kernel has no semaphore of its
  own and two of its windows share an array: of the four distinct buffers behind the five windows' arrays — the
  input, the weights, the recast bias, the result — the weights' is read by two windows, so its full share is
  split into its left and right halves, one per window; the others go to their one window whole. The one
  unscoped buffer that is no window's array, the bias argument itself, bypasses the region and is read back
  unchanged. Conclusion: every weakly fair execution terminates, each window's array ends at what the proof
  data compute (an input as launched, the result as the blocks written back), the bias argument as launched.
-/
import proofs.«106949_g26190710571470_cont_sun_m_625_26_alg».proof.Proof.Kernel.Body
import Idealize.ShloMosaic.Lib.Pipeline.Frame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays are four: two of the five windows read the weights. -/
theorem arrRefs_eq : Finset.univ.image (Pipeline.arrRef spec0) = {main_arg0, main_arg1, main_call0_v0, main_v0} := by decide

/-- The four buffers one by one. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_arg0) ↦{fullShare} W main_arg0) ∗ (((c.tc : Thread nD τ).loc main_arg1) ↦{fullShare} W main_arg1)
          ∗ (((c.tc : Thread nD τ).loc main_call0_v0) ↦{fullShare} W main_call0_v0) ∗ (((c.tc : Thread nD τ).loc main_v0) ↦{fullShare} W main_v0)) := by
  unfold Pipeline.arrBufs
  rw [arrRefs_eq, bigSep_insert (by decide), bigSep_insert (by decide), bigSep_insert (by decide), bigSep_singleton]
  rfl

/-- The shares the proof data hold the arrays at. -/
theorem share0 (c : Dev nD) : (dats m 0 c).share 0 = fullShare := rfl
theorem share1 (c : Dev nD) : (dats m 0 c).share 1 = fullShare.left := rfl
theorem share2 (c : Dev nD) : (dats m 0 c).share 2 = fullShare.right := rfl
theorem share3 (c : Dev nD) : (dats m 0 c).share 3 = fullShare := rfl
theorem share4 (c : Dev nD) : (dats m 0 c).share 4 = fullShare := rfl

/-- The distinct buffers behind the arrays, each whole at the full share at the entry contents, make the proof data's
    arrays at entry: the weights' buffer split between windows 1 and 2. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  rw [(arr_whole0 0).set_eq_univ, (arr_whole0 1).set_eq_univ, (arr_whole0 3).set_eq_univ, (arr_whole0 4).set_eq_univ,
    share0, share1, share2, share3, share4]
  iintro ⟨H0, H1, H3, H4⟩
  ihave H12 := (pointsTo_share (PosShare.mem_left_op_right fullShare)).1 $$ H1
  icases H12 with ⟨H1, H2⟩
  isplitl [H0]; · iexact H0
  isplitl [H1]; · iexact H1
  isplitl [H2]; · iexact H2
  isplitl [H3]; · iexact H3
  iexact H4

set_option backward.isDefEq.respectTransparency.types false in
/-- At the compiled mesh, for any values, from any memory with zero counters: every weakly fair execution of the
    program terminates, and every final state has every array of the pipeline at what the proof data compute and the
    bias argument as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      show _ ⊢ Pipeline.scopedRest spec0 c
      iintro ⟨-, H⟩; iexact H)
    (hout := fun c => by
      show Pipeline.scopedRest spec0 c ⊢ _
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨fun w => (h c).1 w, (h c).2⟩)

/-- info: 'Cert.Kernel.Fr.run_main' depends on axioms: [propext, Classical.choice, Quot.sound] -/
#guard_msgs in #print axioms run_main

/-- The three argument arrays end unchanged: the input and the weights are input windows' arrays, never written;
    the bias bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 rfl (by decide))).trans (V_main_arg2 m c)⟩) (run_main m ρ)

end Cert.Kernel.Fr

end
-- ==== Proof.KernelIdeal.Runs.lean ====
/-
  The idealized kernel's launch, up to its body: what the TensorCore's buffers hold when the region is
  entered (the bias array recast from [4, 4096, 1] to [4, 1, 4096] by the one host operation before it, the
  three argument arrays untouched), the block of each window's array at a grid point, that each of the four
  input windows' staging buffers holds that block whenever the body runs (fetched there or not: the weight
  and input slabs move with every point, the bias row only with the group), and the two conditions of the
  body decided over the 4 x 4 grid: the first holds exactly at the first contraction step of a group
  (point ≡ 0 mod 4), the second exactly at the later ones.
-/
import proofs.«106949_g26190710571470_cont_sun_m_625_26_alg».proof.Proof.Gen.KernelIdeal.Launch
import proofs.«106949_g26190710571470_cont_sun_m_625_26_alg».proof.Proof.Gen.KernelIdeal.Skeleton
import proofs.«106949_g26190710571470_cont_sun_m_625_26_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the region's entry -/

/-- Core `c`'s TensorCore buffers when the region is entered: the launch contents after the host recast of the bias. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region: the recast, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The recast writes none of the three argument arrays: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not, for any proof data
    whose array is the entry contents and whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions over the grid -/

/-- The first condition (the contraction step is the group's first) holds at the points ≡ 0 (mod 4); -/
theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)
/-- the second (a later step) at all the others. -/
theorem hcond2 : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)
/-- So the output window is never idle: at every point one of the two branches stores into it. -/
theorem live4 : ∀ i : grid0.Coords, cfg0.idle 4 i = false :=
  (by decide +kernel : ∀ i : grid0.Coords, idle0 4 i = false)

/-! ## The staging memrefs at a point -/

abbrev ms0 (t : Fin cfg0.N) : Memref sig .tc .vmem S1x1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x4096x256 .f32 := win0_4.stage (cfg0.slots t 4)
abbrev hs4 (t : Fin cfg0.N) : (ms4 t).IsWhole := hstage0_4 ((cfg0.slots t 4).cast nbuf0_4)
/-- One staging buffer of the output window, through which its contents are stated. -/
abbrev VO4 : View sig .tc .vmem S1x4096x256 .f32 := (Memref.whole cc0_stg4_0 : Memref sig .tc .vmem S1x4096x256 .f32).view

end Cert.KernelIdeal.Fr

end
-- ==== Proof.KernelIdeal.RunA.lean ====
/-
  The body at a group's FIRST contraction step (the first condition holds, the second fails), on any whole
  staging memrefs: from the input slab, the two half-slabs of the weights and the bias row at their contents,
  and the output block at anything, it runs to the end leaving the inputs as they were and the output block
  overwritten by two stores — rows 0..2047 and rows 2048..4095 — of the two products plus the bias halves.
  The pieces written are found by running the body.
-/
import proofs.«106949_g26190710571470_cont_sun_m_625_26_alg».proof.Proof.KernelIdeal.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the first-step body leaves in the output block, with the proof that the body runs to them. -/
noncomputable def kernelRunA (c : Dev nD) (i : grid0.Coords)
    (arg2 : Memref sig .tc .vmem S1x1024x256 .f32) (harg2 : arg2.IsWhole)
    (arg3 : Memref sig .tc .vmem S1x1024x2048 .f32) (harg3 : arg3.IsWhole)
    (arg4 : Memref sig .tc .vmem S1x1024x2048 .f32) (harg4 : arg4.IsWhole)
    (arg5 : Memref sig .tc .vmem S1x1x4096 .f32) (harg5 : arg5.IsWhole)
    (arg6 : Memref sig .tc .vmem S1x4096x256 .f32) (harg6 : arg6.IsWhole)
    (hc1 : k0_cond1 i = 1#1) (hc2 : ¬ k0_cond2 i = 1#1)
    (x0 : Vec F S1x1024x256 .f32) (x1 : Vec F S1x1024x2048 .f32) (x2 : Vec F S1x1024x2048 .f32) (x3 : Vec F S1x1x4096 .f32) :
    { L4 : List (View.Piece (Elt F) S1x4096x256 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L4)) -∗ K ⟨⟩))
          ⊢ wp frame (wpE (defs₀ (F := F)) Variants.none c none) E (cc0__body i arg2 harg2 arg3 harg3 arg4 harg4 arg5 harg5 arg6 harg6) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1
    obtain rfl := harg4.eq_unread hf2; obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Fr

end
-- ==== Proof.KernelIdeal.RunB.lean ====
/-
  The body at a LATER contraction step of a group (the first condition fails, the second holds), on any whole
  staging memrefs: from the input slab and the two half-slabs of the weights at their contents, the bias row at
  its contents (unread here) and the output block at its running contents, it runs to the end leaving the
  inputs as they were and the output block overwritten by two stores — each half of the running block plus the
  step's product for that half. The pieces written are found by running the body.
-/
import proofs.«106949_g26190710571470_cont_sun_m_625_26_alg».proof.Proof.KernelIdeal.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces a later-step body leaves in the output block, with the proof that the body runs to them. -/
noncomputable def kernelRunB (c : Dev nD) (i : grid0.Coords)
    (arg2 : Memref sig .tc .vmem S1x1024x256 .f32) (harg2 : arg2.IsWhole)
    (arg3 : Memref sig .tc .vmem S1x1024x2048 .f32) (harg3 : arg3.IsWhole)
    (arg4 : Memref sig .tc .vmem S1x1024x2048 .f32) (harg4 : arg4.IsWhole)
    (arg5 : Memref sig .tc .vmem S1x1x4096 .f32) (harg5 : arg5.IsWhole)
    (arg6 : Memref sig .tc .vmem S1x4096x256 .f32) (harg6 : arg6.IsWhole)
    (hc1 : ¬ k0_cond1 i = 1#1) (hc2 : k0_cond2 i = 1#1)
    (x0 : Vec F S1x1024x256 .f32) (x1 : Vec F S1x1024x2048 .f32) (x2 : Vec F S1x1024x2048 .f32) (x3 : Vec F S1x1x4096 .f32)
    (xo : Vec F S1x4096x256 .f32) :
    { L4 : List (View.Piece (Elt F) S1x4096x256 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xo
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L4)) -∗ K ⟨⟩))
          ⊢ wp frame (wpE (defs₀ (F := F)) Variants.none c none) E (cc0__body i arg2 harg2 arg3 harg3 arg4 harg4 arg5 harg5 arg6 harg6) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3
    obtain rfl := harg6.eq_unread hf4
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Fr

end
-- ==== Proof.KernelIdeal.Data.lean ====
/-
  What the output block holds after each grid point, and the pipeline's proof data.
  At a group's first contraction step the body's two stores tile the [1, 4096, 256] block (rows 0..2047 and
  2048..4095), so the block afterwards is those pieces whatever it held; at a later step the same two
  rectangles are overwritten with the running block plus the step's products. By recursion on the point this
  gives the block after every point (the running sum of the group's products so far, plus the bias). The
  proof data: every array as the region finds it; each input's buffer left at its block; the output's at the
  recursion's value. The weight array is read through TWO windows (its left and right halves of the output
  features), so its buffer's full share is dealt to them as its left and right halves.
-/
import proofs.«106949_g26190710571470_cont_sun_m_625_26_alg».proof.Proof.KernelIdeal.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first-step pieces tile the output block, so they cover it. -/
theorem coverA (c : Dev nD) (i : grid0.Coords) (arg2 : Memref sig .tc .vmem S1x1024x256 .f32) (harg2 : arg2.IsWhole) (arg3 : Memref sig .tc .vmem S1x1024x2048 .f32) (harg3 : arg3.IsWhole) (arg4 : Memref sig .tc .vmem S1x1024x2048 .f32) (harg4 : arg4.IsWhole) (arg5 : Memref sig .tc .vmem S1x1x4096 .f32) (harg5 : arg5.IsWhole) (arg6 : Memref sig .tc .vmem S1x4096x256 .f32) (harg6 : arg6.IsWhole)
    (hc1 : k0_cond1 i = 1#1) (hc2 : ¬ k0_cond2 i = 1#1) (x0 : Vec F S1x1024x256 .f32) (x1 : Vec F S1x1024x2048 .f32) (x2 : Vec F S1x1024x2048 .f32) (x3 : Vec F S1x1x4096 .f32) (y : S1x4096x256.Idx) :
    ∃ pc ∈ (kernelRunA c i arg2 harg2 arg3 harg3 arg4 harg4 arg5 harg5 arg6 harg6 hc1 hc2 x0 x1 x2 x3).1, y ∈ pc.1.set :=
  View.cover_of_tiledL (kernelRunA c i arg2 harg2 arg3 harg3 arg4 harg4 arg5 harg5 arg6 harg6 hc1 hc2 x0 x1 x2 x3).1 S1x2048x256.size (by sl_kernel_rfl) y

/-- What a first step leaves in the output block: its pieces read back. -/
def outA (c : Dev nD) (i : grid0.Coords) (arg2 : Memref sig .tc .vmem S1x1024x256 .f32) (harg2 : arg2.IsWhole) (arg3 : Memref sig .tc .vmem S1x1024x2048 .f32) (harg3 : arg3.IsWhole) (arg4 : Memref sig .tc .vmem S1x1024x2048 .f32) (harg4 : arg4.IsWhole) (arg5 : Memref sig .tc .vmem S1x1x4096 .f32) (harg5 : arg5.IsWhole) (arg6 : Memref sig .tc .vmem S1x4096x256 .f32) (harg6 : arg6.IsWhole)
    (hc1 : k0_cond1 i = 1#1) (hc2 : ¬ k0_cond2 i = 1#1) (x0 : Vec F S1x1024x256 .f32) (x1 : Vec F S1x1024x2048 .f32) (x2 : Vec F S1x1024x2048 .f32) (x3 : Vec F S1x1x4096 .f32) : Vec F S1x4096x256 .f32 :=
  VO4.read (Elt F) (VO4.writes (Elt F) VO4.junk (kernelRunA c i arg2 harg2 arg3 harg3 arg4 harg4 arg5 harg5 arg6 harg6 hc1 hc2 x0 x1 x2 x3).1)

/-- A later step's pieces tile the output block too. -/
theorem coverB (c : Dev nD) (i : grid0.Coords) (arg2 : Memref sig .tc .vmem S1x1024x256 .f32) (harg2 : arg2.IsWhole) (arg3 : Memref sig .tc .vmem S1x1024x2048 .f32) (harg3 : arg3.IsWhole) (arg4 : Memref sig .tc .vmem S1x1024x2048 .f32) (harg4 : arg4.IsWhole) (arg5 : Memref sig .tc .vmem S1x1x4096 .f32) (harg5 : arg5.IsWhole) (arg6 : Memref sig .tc .vmem S1x4096x256 .f32) (harg6 : arg6.IsWhole)
    (hc1 : ¬ k0_cond1 i = 1#1) (hc2 : k0_cond2 i = 1#1) (x0 : Vec F S1x1024x256 .f32) (x1 : Vec F S1x1024x2048 .f32) (x2 : Vec F S1x1024x2048 .f32) (x3 : Vec F S1x1x4096 .f32) (xo : Vec F S1x4096x256 .f32) (y : S1x4096x256.Idx) :
    ∃ pc ∈ (kernelRunB c i arg2 harg2 arg3 harg3 arg4 harg4 arg5 harg5 arg6 harg6 hc1 hc2 x0 x1 x2 x3 xo).1, y ∈ pc.1.set :=
  View.cover_of_tiledL (kernelRunB c i arg2 harg2 arg3 harg3 arg4 harg4 arg5 harg5 arg6 harg6 hc1 hc2 x0 x1 x2 x3 xo).1 S1x2048x256.size (by sl_kernel_rfl) y

/-- What a later step leaves in the output block, from the running block `xo`. -/
def outB (c : Dev nD) (i : grid0.Coords) (arg2 : Memref sig .tc .vmem S1x1024x256 .f32) (harg2 : arg2.IsWhole) (arg3 : Memref sig .tc .vmem S1x1024x2048 .f32) (harg3 : arg3.IsWhole) (arg4 : Memref sig .tc .vmem S1x1024x2048 .f32) (harg4 : arg4.IsWhole) (arg5 : Memref sig .tc .vmem S1x1x4096 .f32) (harg5 : arg5.IsWhole) (arg6 : Memref sig .tc .vmem S1x4096x256 .f32) (harg6 : arg6.IsWhole)
    (hc1 : ¬ k0_cond1 i = 1#1) (hc2 : k0_cond2 i = 1#1) (x0 : Vec F S1x1024x256 .f32) (x1 : Vec F S1x1024x2048 .f32) (x2 : Vec F S1x1024x2048 .f32) (x3 : Vec F S1x1x4096 .f32) (xo : Vec F S1x4096x256 .f32) : Vec F S1x4096x256 .f32 :=
  VO4.read (Elt F) (VO4.writes (Elt F) VO4.junk (kernelRunB c i arg2 harg2 arg3 harg3 arg4 harg4 arg5 harg5 arg6 harg6 hc1 hc2 x0 x1 x2 x3 xo).1)

/-! ## The output block after each point -/

/-- The output block after the body at position `n`: a first step's pieces at the points ≡ 0 (mod 4), else a later
    step's over what position `n - 1` left. -/
def outsAt (c : Dev nD) : (n : ℕ) → n < cfg0.N → Vec F S1x4096x256 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((hcond1 ⟨0, hn⟩).mpr (Nat.zero_mod _)) (fun h => (hcond2 ⟨0, hn⟩).mp h (Nat.zero_mod _)) (iblk m c 0 ⟨0, hn⟩) (iblk m c 1 ⟨0, hn⟩) (iblk m c 2 ⟨0, hn⟩) (iblk m c 3 ⟨0, hn⟩)
  | n + 1, hn =>
    if h0 : (n + 1) % 4 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((hcond1 ⟨n + 1, hn⟩).mpr h0) (fun h => (hcond2 ⟨n + 1, hn⟩).mp h h0) (iblk m c 0 ⟨n + 1, hn⟩) (iblk m c 1 ⟨n + 1, hn⟩) (iblk m c 2 ⟨n + 1, hn⟩) (iblk m c 3 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((hcond1 ⟨n + 1, hn⟩).mp h)) ((hcond2 ⟨n + 1, hn⟩).mpr h0) (iblk m c 0 ⟨n + 1, hn⟩) (iblk m c 1 ⟨n + 1, hn⟩) (iblk m c 2 ⟨n + 1, hn⟩) (iblk m c 3 ⟨n + 1, hn⟩) (outsAt c n (Nat.lt_of_succ_lt hn))

theorem outsAt_A (c : Dev nD) (t : Fin cfg0.N) (h0 : t.val % 4 = 0) :
    outsAt m c t.val t.isLt = outA c (grid0.coords t) (ms0 t) (hs0 t) (ms1 t) (hs1 t) (ms2 t) (hs2 t) (ms3 t) (hs3 t) (ms4 t) (hs4 t) ((hcond1 t).mpr h0) (fun h => (hcond2 t).mp h h0) (iblk m c 0 t) (iblk m c 1 t) (iblk m c 2 t) (iblk m c 3 t) := by
  obtain ⟨n, hn⟩ := t
  cases n with
  | zero => exact rfl
  | succ n => exact (dif_pos h0).trans rfl

theorem outsAt_B (c : Dev nD) (t : Fin cfg0.N) (h0 : ¬t.val % 4 = 0) :
    outsAt m c t.val t.isLt = outB c (grid0.coords t) (ms0 t) (hs0 t) (ms1 t) (hs1 t) (ms2 t) (hs2 t) (ms3 t) (hs3 t) (ms4 t) (hs4 t) (fun h => h0 ((hcond1 t).mp h)) ((hcond2 t).mpr h0) (iblk m c 0 t) (iblk m c 1 t) (iblk m c 2 t) (iblk m c 3 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`. The invariant between points is the core's scoped buffers outside the staging
    buffers (there are none); nothing is owed. The weight array, read by windows 1 and 2, is held by them at the
    two halves of its full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t.val t.isLt
  Φ _ := Pipeline.scopedRest (Ix := Unit) (Name := ℕ) (U := UR sig nD τ) (Lvl := ℕ) (Val := Elt F) spec0 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outsAt m c t.val t.isLt := by dsimp only [dats]

/-- Each input's staging buffer holds its block at every point. -/
theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d

/-- At a later step the output's staging buffer holds what the step before left: the block is written back only
    after a group's last step (points ≡ 3 mod 4), never just before a later step. -/
theorem before4_B (c : Dev nD) (t : Fin cfg0.N) (h0 : ¬t.val % 4 = 0) (d) :
    (dats m 0 c).before 4 t d = outsAt m c (t.val - 1) (Nat.lt_of_le_of_lt (Nat.sub_le _ _) t.isLt) := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    live4 (fun _ _ => rfl)]
  dsimp only [dats]

end Cert.KernelIdeal.Fr

end
-- ==== Proof.KernelIdeal.Pay.lean ====
/-
  The body's arithmetic at the exact values, read entry by entry. With x the [1, 1024, 256] slab of the input,
  w a [1, 1024, 2048] half-slab of the weights and β the [1, 1, 4096] bias row:
    the product of a step, at output feature r and column q, is  Σ_{k < 1024} w(0, k, r) · x(0, k, q)
  (the weights contracted along their FIRST axis: the transposed product); a first step stores that plus the
  bias β(0, 0, r) (β(0, 0, 2048 + r) for the right half), a later step stores the running entry plus it.
-/
import proofs.«106949_g26190710571470_cont_sun_m_625_26_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.ValueIdx

/-! ## The contraction's operand indices -/

theorem lhs_0 (i : S2048x256.Idx) (q : dot_S1024x2048_S1024x256_S2048x256_0_0_1_1_n_n.contr.Idx) :
    (dot_S1024x2048_S1024x256_S2048x256_0_0_1_1_n_n.lhsIdx i q 0).val = (q ⟨0, by decide⟩).val :=
  dot_S1024x2048_S1024x256_S2048x256_0_0_1_1_n_n.lhsIdx_val_of_single rfl i q
theorem lhs_1 (i : S2048x256.Idx) (q : dot_S1024x2048_S1024x256_S2048x256_0_0_1_1_n_n.contr.Idx) :
    (dot_S1024x2048_S1024x256_S2048x256_0_0_1_1_n_n.lhsIdx i q 1).val = (i 0).val := by
  unfold DotDims.lhsIdx
  rw [dif_neg (show ¬(1 : Fin S1024x2048.rank) ∈ dot_S1024x2048_S1024x256_S2048x256_0_0_1_1_n_n.lhsBatch by decide), dif_pos (show (1 : Fin S1024x2048.rank) ∈ dot_S1024x2048_S1024x256_S2048x256_0_0_1_1_n_n.lhsNonContracting by decide)]
  rfl
theorem rhs_0 (i : S2048x256.Idx) (q : dot_S1024x2048_S1024x256_S2048x256_0_0_1_1_n_n.contr.Idx) :
    (dot_S1024x2048_S1024x256_S2048x256_0_0_1_1_n_n.rhsIdx i q 0).val = (q ⟨0, by decide⟩).val :=
  dot_S1024x2048_S1024x256_S2048x256_0_0_1_1_n_n.rhsIdx_val_of_single rfl i q
theorem rhs_1 (i : S2048x256.Idx) (q : dot_S1024x2048_S1024x256_S2048x256_0_0_1_1_n_n.contr.Idx) :
    (dot_S1024x2048_S1024x256_S2048x256_0_0_1_1_n_n.rhsIdx i q 1).val = (i 1).val := by
  unfold DotDims.rhsIdx
  rw [dif_neg (show ¬(1 : Fin S1024x256.rank) ∈ dot_S1024x2048_S1024x256_S2048x256_0_0_1_1_n_n.rhsBatch by decide), dif_pos (show (1 : Fin S1024x256.rank) ∈ dot_S1024x2048_S1024x256_S2048x256_0_0_1_1_n_n.rhsNonContracting by decide)]
  rfl

/-! ## The products -/

/-- A matrix product of a [1024, 2048] left operand, contracted along its rows, with a [1024, 256] right operand,
    into the zero accumulator: at (r, q) the sum over the 1024 rows. -/
theorem prod_apply (l : FVec Ideal S1024x2048 .f32) (x : FVec Ideal S1024x256 .f32) (r : Fin 2048) (q : Fin 256) :
    matmul dot_S1024x2048_S1024x256_S2048x256_0_0_1_1_n_n none l x (constant S2048x256 .f32 0x00000000#32) (ix2 r q)
      = ∑ k : Fin 1024, l (ix2 k r) * x (ix2 k q) := by
  simp only [matmul]
  rw [Ideal.matmul_constant_zero_apply, ← Equiv.sum_comp (ValueIdx.contrEquiv1 dot_S1024x2048_S1024x256_S2048x256_0_0_1_1_n_n 1024 rfl rfl).symm]
  refine Finset.sum_congr rfl fun k _ => ?_
  have hk := ValueIdx.contrEquiv1_symm_val dot_S1024x2048_S1024x256_S2048x256_0_0_1_1_n_n 1024 rfl rfl k
  have el : dot_S1024x2048_S1024x256_S2048x256_0_0_1_1_n_n.lhsIdx (ix2 r q) ((ValueIdx.contrEquiv1 dot_S1024x2048_S1024x256_S2048x256_0_0_1_1_n_n 1024 rfl rfl).symm k) = ix2 k r := funext fun a => Fin.ext (by
    match a with
    | ⟨0, _⟩ => exact (lhs_0 _ _).trans hk
    | ⟨1, _⟩ => exact lhs_1 _ _)
  have er : dot_S1024x2048_S1024x256_S2048x256_0_0_1_1_n_n.rhsIdx (ix2 r q) ((ValueIdx.contrEquiv1 dot_S1024x2048_S1024x256_S2048x256_0_0_1_1_n_n 1024 rfl rfl).symm k) = ix2 k q := funext fun a => Fin.ext (by
    match a with
    | ⟨0, _⟩ => exact (rhs_0 _ _).trans hk
    | ⟨1, _⟩ => exact rhs_1 _ _)
  rw [el, er]

/-- The input slab without its unit axis. -/
theorem pay1_apply {F : FTy → Type} [FloatOps F] (v0 : Vec F S1x1024x256 .f32) (k : Fin 1024) (q : Fin 256) :
    k0_pay1 v0 (ix2 k q) = v0 (ix3 (0 : Fin 1) k q) := by
  unfold k0_pay1
  exact shapeCast_1ab_ab_apply v0 _ k q

/-- The left half's product of a step. -/
theorem pay2_apply (v0 : Vec Ideal S1x1024x256 .f32) (v2 : Vec Ideal S1x1024x2048 .f32) (r : Fin 2048) (q : Fin 256) :
    k0_pay2 v0 v2 (ix2 r q) = ∑ k : Fin 1024, v2 (ix3 (0 : Fin 1) k r) * v0 (ix3 (0 : Fin 1) k q) := by
  unfold k0_pay2
  refine (prod_apply _ _ r q).trans ?_
  refine Finset.sum_congr rfl fun k _ => ?_
  rw [pay1_apply, shapeCast_1ab_ab_apply]

/-- The right half's product of a step. -/
theorem pay3_apply (v0 : Vec Ideal S1x1024x256 .f32) (v5 : Vec Ideal S1x1024x2048 .f32) (r : Fin 2048) (q : Fin 256) :
    k0_pay3 v0 v5 (ix2 r q) = ∑ k : Fin 1024, v5 (ix3 (0 : Fin 1) k r) * v0 (ix3 (0 : Fin 1) k q) := by
  unfold k0_pay3
  refine (prod_apply _ _ r q).trans ?_
  refine Finset.sum_congr rfl fun k _ => ?_
  rw [pay1_apply, shapeCast_1ab_ab_apply]

/-! ## The bias row as a column -/

/-- The [1, 1, 4096] bias row recast to a [4096, 1] column: entry (o, 0) is the row's entry o. -/
theorem pay4_apply {F : FTy → Type} [FloatOps F] (v14 : Vec F S1x1x4096 .f32) (o : Fin 4096) (u : Fin 1) :
    k0_pay4 v14 (ix2 o u) = v14 (ix3 (0 : Fin 1) (0 : Fin 1) o) := by
  unfold k0_pay4
  have hu : u.val = 0 := by omega
  refine (shapeCast_apply _ _ (ix2 o u) (ix1 o) (by
    rw [Shape.rowMajor_val_one, Shape.rowMajor_val_two]
    show o.val = o.val * 1 + u.val
    omega)).trans ?_
  exact shapeCast_apply _ _ (ix1 o) (ix3 (0 : Fin 1) (0 : Fin 1) o) (by
    rw [Shape.rowMajor_val_three, Shape.rowMajor_val_one]
    show (0 * 1 + 0) * 4096 + o.val = o.val
    omega)

/-- Rows [off, off + 2048) of the bias column broadcast along the 256 columns: entry (r, q) is the bias at off + r. -/
theorem bias_apply {F : FTy → Type} [FloatOps F] (col : FVec F S4096x1 .f32) (off : Nat) (h : S4096x1.Slices ![off, 0] S2048x1)
    (r : Fin 2048) (q : Fin 256) (o : Fin 4096) (ho : o.val = off + r.val) :
    broadcastTo S2048x256 (extractStridedSlice S2048x1 ![off, 0] col h) broadcasts_S2048x1_S2048x256 (ix2 r q)
      = col (ix2 o (0 : Fin 1)) := by
  refine (broadcastTo_apply _ _ (ix2 r q) (ix2 r (0 : Fin 1)) (fun a => by
    match a with
    | ⟨0, _⟩ => show r.val = if (2048 : Nat) = 1 then 0 else r.val; rw [if_neg (by decide)]
    | ⟨1, _⟩ => show 0 = if (1 : Nat) = 1 then 0 else q.val; rw [if_pos rfl])).trans ?_
  exact slice2_axis0_apply off col h r (0 : Fin 1) o ho

/-! ## What the four stores write -/

/-- First step, rows 0..2047: the left product plus the bias. -/
theorem pay5_apply (v0 : Vec Ideal S1x1024x256 .f32) (v2 : Vec Ideal S1x1024x2048 .f32) (v14 : Vec Ideal S1x1x4096 .f32)
    (u : Fin 1) (r : Fin 2048) (q : Fin 256) (o : Fin 4096) (ho : o.val = r.val) :
    k0_pay5 v0 v2 v14 (ix3 u r q)
      = (∑ k : Fin 1024, v2 (ix3 (0 : Fin 1) k r) * v0 (ix3 (0 : Fin 1) k q)) + v14 (ix3 (0 : Fin 1) (0 : Fin 1) o) := by
  unfold k0_pay5
  refine (shapeCast_ab_1ab_apply _ _ u r q).trans ?_
  rw [addf_apply, pay2_apply, bias_apply (k0_pay4 v14) 0 _ r q o (by omega), pay4_apply]

/-- First step, rows 2048..4095: the right product plus the bias. -/
theorem pay6_apply (v0 : Vec Ideal S1x1024x256 .f32) (v5 : Vec Ideal S1x1024x2048 .f32) (v14 : Vec Ideal S1x1x4096 .f32)
    (u : Fin 1) (r : Fin 2048) (q : Fin 256) (o : Fin 4096) (ho : o.val = 2048 + r.val) :
    k0_pay6 v0 v5 v14 (ix3 u r q)
      = (∑ k : Fin 1024, v5 (ix3 (0 : Fin 1) k r) * v0 (ix3 (0 : Fin 1) k q)) + v14 (ix3 (0 : Fin 1) (0 : Fin 1) o) := by
  unfold k0_pay6
  refine (shapeCast_ab_1ab_apply _ _ u r q).trans ?_
  rw [addf_apply, pay3_apply, bias_apply (k0_pay4 v14) 2048 _ r q o ho, pay4_apply]

/-- Later step, rows 0..2047: the running entry plus the left product. -/
theorem pay7_apply (v0 : Vec Ideal S1x1024x256 .f32) (v2 : Vec Ideal S1x1024x2048 .f32) (v14 : Vec Ideal S1x2048x256 .f32)
    (u : Fin 1) (r : Fin 2048) (q : Fin 256) :
    k0_pay7 v0 v2 v14 (ix3 u r q)
      = v14 (ix3 (0 : Fin 1) r q) + ∑ k : Fin 1024, v2 (ix3 (0 : Fin 1) k r) * v0 (ix3 (0 : Fin 1) k q) := by
  unfold k0_pay7
  refine (shapeCast_ab_1ab_apply _ _ u r q).trans ?_
  rw [addf_apply, pay2_apply, shapeCast_1ab_ab_apply]

/-- Later step, rows 2048..4095: the running entry plus the right product. -/
theorem pay8_apply (v0 : Vec Ideal S1x1024x256 .f32) (v5 : Vec Ideal S1x1024x2048 .f32) (v20 : Vec Ideal S1x2048x256 .f32)
    (u : Fin 1) (r : Fin 2048) (q : Fin 256) :
    k0_pay8 v0 v5 v20 (ix3 u r q)
      = v20 (ix3 (0 : Fin 1) r q) + ∑ k : Fin 1024, v5 (ix3 (0 : Fin 1) k r) * v0 (ix3 (0 : Fin 1) k q) := by
  unfold k0_pay8
  refine (shapeCast_ab_1ab_apply _ _ u r q).trans ?_
  rw [addf_apply, pay3_apply, shapeCast_1ab_ab_apply]

end Cert.KernelIdeal.Val

end
-- ==== Proof.KernelIdeal.Steps.lean ====
/-
  What each case of the body leaves in the output block, at the exact values, as ONE function of the block's
  index (0, o, q). Write  S(o, q) = Σ_{k < 1024} w(0, k, o') · x(0, k, q)  for the step's product, where w is the
  left half-slab and o' = o when o < 2048, the right half-slab and o' = o − 2048 otherwise. A first step leaves
  S(o, q) + β(0, 0, o); a later step leaves the running entry plus S(o, q). Each is read off the two stores the
  run found: both stores' payloads are that function on their own rows.
-/
import proofs.«106949_g26190710571470_cont_sun_m_625_26_alg».proof.Proof.KernelIdeal.Data
import proofs.«106949_g26190710571470_cont_sun_m_625_26_alg».proof.Proof.KernelIdeal.Pay

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz3 : (![0, 0, 0] : Fin 3 → Nat) = fun _ => 0 := funext fun a => by fin_cases a <;> rfl

/-- The step's product at output feature `o`, column `q`. -/
def stepSum (x0 : Vec Ideal S1x1024x256 .f32) (x1 x2 : Vec Ideal S1x1024x2048 .f32) (o : Fin 4096) (q : Fin 256) : EReal :=
  if h : o.val < 2048 then ∑ k : Fin 1024, x1 (ix3 (0 : Fin 1) k (⟨o.val, h⟩ : Fin 2048)) * x0 (ix3 (0 : Fin 1) k q)
  else ∑ k : Fin 1024, x2 (ix3 (0 : Fin 1) k (⟨o.val - 2048, by have := o.isLt; omega⟩ : Fin 2048)) * x0 (ix3 (0 : Fin 1) k q)

theorem stepSum_lo (x0 : Vec Ideal S1x1024x256 .f32) (x1 x2 : Vec Ideal S1x1024x2048 .f32) (o : Fin 4096) (q : Fin 256)
    (r : Fin 2048) (h : o.val = r.val) :
    stepSum x0 x1 x2 o q = ∑ k : Fin 1024, x1 (ix3 (0 : Fin 1) k r) * x0 (ix3 (0 : Fin 1) k q) := by
  have hlt : o.val < 2048 := by have := r.isLt; omega
  have hr : (⟨o.val, hlt⟩ : Fin 2048) = r := Fin.ext h
  unfold stepSum
  rw [dif_pos hlt, hr]

theorem stepSum_hi (x0 : Vec Ideal S1x1024x256 .f32) (x1 x2 : Vec Ideal S1x1024x2048 .f32) (o : Fin 4096) (q : Fin 256)
    (r : Fin 2048) (h : o.val = 2048 + r.val) :
    stepSum x0 x1 x2 o q = ∑ k : Fin 1024, x2 (ix3 (0 : Fin 1) k r) * x0 (ix3 (0 : Fin 1) k q) := by
  have hge : ¬ o.val < 2048 := by omega
  have hr : (⟨o.val - 2048, by have := o.isLt; omega⟩ : Fin 2048) = r := Fin.ext (by show o.val - 2048 = r.val; omega)
  unfold stepSum
  rw [dif_neg hge, hr]

/-- What a first step leaves, as a function of the block index. -/
def GA (x0 : Vec Ideal S1x1024x256 .f32) (x1 x2 : Vec Ideal S1x1024x2048 .f32) (x3 : Vec Ideal S1x1x4096 .f32) :
    Vec Ideal S1x4096x256 .f32 :=
  fun y => stepSum x0 x1 x2 (y 1) (y 2) + x3 (ix3 (0 : Fin 1) (0 : Fin 1) (y 1))

/-- What a later step leaves over the running block `xo`. -/
def GB (x0 : Vec Ideal S1x1024x256 .f32) (x1 x2 : Vec Ideal S1x1024x2048 .f32) (xo : Vec Ideal S1x4096x256 .f32) :
    Vec Ideal S1x4096x256 .f32 :=
  fun y => xo y + stepSum x0 x1 x2 (y 1) (y 2)

/-- The two stores' payloads are that function on their own rows: rows 0..2047, -/
theorem GA_lo (x0 : Vec Ideal S1x1024x256 .f32) (x1 x2 : Vec Ideal S1x1024x2048 .f32) (x3 : Vec Ideal S1x1x4096 .f32)
    (yy : S1x4096x256.Idx) (u : Fin 1) (r : Fin 2048) (q : Fin 256) (e1 : (yy 1).val = r.val) (e2 : yy 2 = q) :
    k0_pay5 x0 x1 x3 (ix3 u r q) = GA x0 x1 x2 x3 yy := by
  unfold GA
  rw [Val.pay5_apply x0 x1 x3 u r q (yy 1) e1, stepSum_lo x0 x1 x2 (yy 1) (yy 2) r e1, e2]

/-- and rows 2048..4095. -/
theorem GA_hi (x0 : Vec Ideal S1x1024x256 .f32) (x1 x2 : Vec Ideal S1x1024x2048 .f32) (x3 : Vec Ideal S1x1x4096 .f32)
    (yy : S1x4096x256.Idx) (u : Fin 1) (r : Fin 2048) (q : Fin 256) (e1 : (yy 1).val = 2048 + r.val) (e2 : yy 2 = q) :
    k0_pay6 x0 x2 x3 (ix3 u r q) = GA x0 x1 x2 x3 yy := by
  unfold GA
  rw [Val.pay6_apply x0 x2 x3 u r q (yy 1) e1, stepSum_hi x0 x1 x2 (yy 1) (yy 2) r e1, e2]

theorem GB_lo (x0 : Vec Ideal S1x1024x256 .f32) (x1 x2 : Vec Ideal S1x1024x2048 .f32) (xo : Vec Ideal S1x4096x256 .f32)
    (v : Vec Ideal S1x2048x256 .f32) (yy : S1x4096x256.Idx) (u : Fin 1) (r : Fin 2048) (q : Fin 256)
    (hv : v (ix3 (0 : Fin 1) r q) = xo yy) (e1 : (yy 1).val = r.val) (e2 : yy 2 = q) :
    k0_pay7 x0 x1 v (ix3 u r q) = GB x0 x1 x2 xo yy := by
  unfold GB
  rw [Val.pay7_apply x0 x1 v u r q, hv, stepSum_lo x0 x1 x2 (yy 1) (yy 2) r e1, e2]

theorem GB_hi (x0 : Vec Ideal S1x1024x256 .f32) (x1 x2 : Vec Ideal S1x1024x2048 .f32) (xo : Vec Ideal S1x4096x256 .f32)
    (v : Vec Ideal S1x2048x256 .f32) (yy : S1x4096x256.Idx) (u : Fin 1) (r : Fin 2048) (q : Fin 256)
    (hv : v (ix3 (0 : Fin 1) r q) = xo yy) (e1 : (yy 1).val = 2048 + r.val) (e2 : yy 2 = q) :
    k0_pay8 x0 x2 v (ix3 u r q) = GB x0 x1 x2 xo yy := by
  unfold GB
  rw [Val.pay8_apply x0 x2 v u r q, hv, stepSum_hi x0 x1 x2 (yy 1) (yy 2) r e1, e2]

/-- The first step's block is that function. -/
theorem outA_eq (c : Dev nD) (i : grid0.Coords) (arg2 : Memref sig .tc .vmem S1x1024x256 .f32) (harg2 : arg2.IsWhole) (arg3 : Memref sig .tc .vmem S1x1024x2048 .f32) (harg3 : arg3.IsWhole) (arg4 : Memref sig .tc .vmem S1x1024x2048 .f32) (harg4 : arg4.IsWhole) (arg5 : Memref sig .tc .vmem S1x1x4096 .f32) (harg5 : arg5.IsWhole) (arg6 : Memref sig .tc .vmem S1x4096x256 .f32) (harg6 : arg6.IsWhole)
    (hc1 : k0_cond1 i = 1#1) (hc2 : ¬ k0_cond2 i = 1#1)
    (x0 : Vec Ideal S1x1024x256 .f32) (x1 : Vec Ideal S1x1024x2048 .f32) (x2 : Vec Ideal S1x1024x2048 .f32) (x3 : Vec Ideal S1x1x4096 .f32) :
    outA (F := Ideal) c i arg2 harg2 arg3 harg3 arg4 harg4 arg5 harg5 arg6 harg6 hc1 hc2 x0 x1 x2 x3 = GA x0 x1 x2 x3 := by
  funext y
  unfold outA
  rw [View.read_writes_eq_canon _ _ _ (coverA c i arg2 harg2 arg3 harg3 arg4 harg4 arg5 harg5 arg6 harg6 hc1 hc2 x0 x1 x2 x3)]
  refine View.canon_apply_of_pieces (GA x0 x1 x2 x3) _ ?_ y (coverA c i arg2 harg2 arg3 harg3 arg4 harg4 arg5 harg5 arg6 harg6 hc1 hc2 x0 x1 x2 x3 y)
  unfold kernelRunA
  dsimp only
  simp only [View.readAt_eq_ld, harg2.read_unread, harg3.read_unread, harg4.read_unread, harg5.read_unread,
    View.ld_unit_zero (S := S1x1024x256) hz3, View.ld_unit_zero (S := S1x1024x2048) hz3, View.ld_unit_zero (S := S1x1x4096) hz3]
  intro p hp x
  simp only [List.mem_cons, List.not_mem_nil, or_false] at hp
  rcases hp with rfl | rfl
  · obtain ⟨u, r, q, rfl⟩ : ∃ (u : Fin 1) (r : Fin 2048) (q : Fin 256), x = ix3 u r q := ⟨x 0, x 1, x 2, eq_ix3 x⟩
    have hu : u = 0 := Subsingleton.elim _ _
    subst hu
    exact GA_hi x0 x1 x2 x3 ((Rect.unit (s := S1x4096x256) ![0, 2048, 0] ![1, 2048, 256] inb_S1x4096x256_S1x2048x256_0_2048_0).emb (ix3 (0 : Fin 1) r q)) 0 r q
      (by show 2048 + 1 * r.val = 2048 + r.val; omega) (Fin.ext (by show 0 + 1 * q.val = q.val; omega))
  · obtain ⟨u, r, q, rfl⟩ : ∃ (u : Fin 1) (r : Fin 2048) (q : Fin 256), x = ix3 u r q := ⟨x 0, x 1, x 2, eq_ix3 x⟩
    have hu : u = 0 := Subsingleton.elim _ _
    subst hu
    exact GA_lo x0 x1 x2 x3 ((Rect.unit (s := S1x4096x256) ![0, 0, 0] ![1, 2048, 256] inb_S1x4096x256_S1x2048x256_0_0_0).emb (ix3 (0 : Fin 1) r q)) 0 r q
      (by show 0 + 1 * r.val = r.val; omega) (Fin.ext (by show 0 + 1 * q.val = q.val; omega))

/-- A later step's block is the running block plus the step's product. -/
theorem outB_eq (c : Dev nD) (i : grid0.Coords) (arg2 : Memref sig .tc .vmem S1x1024x256 .f32) (harg2 : arg2.IsWhole) (arg3 : Memref sig .tc .vmem S1x1024x2048 .f32) (harg3 : arg3.IsWhole) (arg4 : Memref sig .tc .vmem S1x1024x2048 .f32) (harg4 : arg4.IsWhole) (arg5 : Memref sig .tc .vmem S1x1x4096 .f32) (harg5 : arg5.IsWhole) (arg6 : Memref sig .tc .vmem S1x4096x256 .f32) (harg6 : arg6.IsWhole)
    (hc1 : ¬ k0_cond1 i = 1#1) (hc2 : k0_cond2 i = 1#1)
    (x0 : Vec Ideal S1x1024x256 .f32) (x1 : Vec Ideal S1x1024x2048 .f32) (x2 : Vec Ideal S1x1024x2048 .f32) (x3 : Vec Ideal S1x1x4096 .f32)
    (xo : Vec Ideal S1x4096x256 .f32) :
    outB (F := Ideal) c i arg2 harg2 arg3 harg3 arg4 harg4 arg5 harg5 arg6 harg6 hc1 hc2 x0 x1 x2 x3 xo = GB x0 x1 x2 xo := by
  funext y
  unfold outB
  rw [View.read_writes_eq_canon _ _ _ (coverB c i arg2 harg2 arg3 harg3 arg4 harg4 arg5 harg5 arg6 harg6 hc1 hc2 x0 x1 x2 x3 xo)]
  refine View.canon_apply_of_pieces (GB x0 x1 x2 xo) _ ?_ y (coverB c i arg2 harg2 arg3 harg3 arg4 harg4 arg5 harg5 arg6 harg6 hc1 hc2 x0 x1 x2 x3 xo y)
  unfold kernelRunB
  dsimp only
  sl_unfold_words
  simp only [View.readAt_eq_ld, harg2.read_unread, harg3.read_unread, harg4.read_unread, harg5.read_unread, harg6.read_unread,
    View.ld_unit_zero (S := S1x1024x256) hz3, View.ld_unit_zero (S := S1x1024x2048) hz3, View.ld_unit_zero (S := S1x1x4096) hz3]
  intro p hp x
  simp only [List.mem_cons, List.not_mem_nil, or_false] at hp
  rcases hp with rfl | rfl
  · obtain ⟨u, r, q, rfl⟩ : ∃ (u : Fin 1) (r : Fin 2048) (q : Fin 256), x = ix3 u r q := ⟨x 0, x 1, x 2, eq_ix3 x⟩
    have hu : u = 0 := Subsingleton.elim _ _
    subst hu
    exact GB_hi x0 x1 x2 xo _ ((Rect.unit (s := S1x4096x256) ![0, 2048, 0] ![1, 2048, 256] inb_S1x4096x256_S1x2048x256_0_2048_0).emb (ix3 (0 : Fin 1) r q)) 0 r q rfl
      (by show 2048 + 1 * r.val = 2048 + r.val; omega) (Fin.ext (by show 0 + 1 * q.val = q.val; omega))
  · obtain ⟨u, r, q, rfl⟩ : ∃ (u : Fin 1) (r : Fin 2048) (q : Fin 256), x = ix3 u r q := ⟨x 0, x 1, x 2, eq_ix3 x⟩
    have hu : u = 0 := Subsingleton.elim _ _
    subst hu
    exact GB_lo x0 x1 x2 xo _ ((Rect.unit (s := S1x4096x256) ![0, 0, 0] ![1, 2048, 256] inb_S1x4096x256_S1x2048x256_0_0_0).emb (ix3 (0 : Fin 1) r q)) 0 r q rfl
      (by show 0 + 1 * r.val = r.val; omega) (Fin.ext (by show 0 + 1 * q.val = q.val; omega))

end Cert.KernelIdeal.Fr

end
-- ==== Proof.KernelIdeal.Body.lean ====
/-
  The body obligation of the pipeline, at a generic grid point. The four inputs' staging buffers hold their
  blocks; the point is a group's first contraction step or a later one (decided by the closed forms); in the
  first case the output block may hold anything and ends as the first-step pieces, in the second it holds what
  the step before left and ends as the later-step pieces over that. The invariant passes through unread and
  the core owes nothing throughout.
-/
import proofs.«106949_g26190710571470_cont_sun_m_625_26_alg».proof.Proof.KernelIdeal.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  have hN : t.val < 16 := lt_of_lt_of_eq t.isLt (show cfg0.N = 16 from N_0)
  by_cases h0 : t.val % 4 = 0
  · rw [outsAt_A m c t h0]
    unfold outA
    iintro ⟨HΦ, Ho, ⟨%d0, H0⟩, ⟨%d1, H1⟩, ⟨%d2, H2⟩, ⟨%d3, H3⟩, ⟨%d4, H4⟩⟩
    iapply ((kernelRunA c (grid0.coords t) _ _ _ _ _ _ _ _ _ _ ((hcond1 t).mpr h0) (fun h => (hcond2 t).mp h h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverA c _ _ _ _ _ _ _ _ _ _ _ _ _ _ _ _ _)
  · rw [outsAt_B m c t h0]
    simp only [before4_B m c t h0]
    unfold outB
    iintro ⟨HΦ, Ho, ⟨%d0, H0⟩, ⟨%d1, H1⟩, ⟨%d2, H2⟩, ⟨%d3, H3⟩, ⟨%d4, H4⟩⟩
    iapply ((kernelRunB c (grid0.coords t) _ _ _ _ _ _ _ _ _ _ (fun h => h0 ((hcond1 t).mp h)) ((hcond2 t).mpr h0) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverB c _ _ _ _ _ _ _ _ _ _ _ _ _ _ _ _ _ _)

/-- The body obligation at every point: the output window is live everywhere, so what the body leaves
    in it is always the recursion's value. -/
theorem body_obligation (c : Dev nD) : BodyObligation (dats (F := F) m 0 c) (defs₀ (F := F)) Variants.none () Set.univ := fun t => by
  rw [bigSep_W0, bigSep_W0]
  rw [show cfg0.idle 4 (cfg0.grid.coords t) = false from live4 _]
  exact sound_body m c t

end Cert.KernelIdeal.Fr

end
-- ==== Proof.KernelIdeal.Run.lean ====
/-
  The run of the idealized kernel's program. The kernel has no semaphore of its
  own and two of its windows share an array: of the four distinct buffers behind the five windows' arrays — the
  input, the weights, the recast bias, the result — the weights' is read by two windows, so its full share is
  split into its left and right halves, one per window; the others go to their one window whole. The one
  unscoped buffer that is no window's array, the bias argument itself, bypasses the region and is read back
  unchanged. Conclusion: every weakly fair execution terminates, each window's array ends at what the proof
  data compute (an input as launched, the result as the blocks written back), the bias argument as launched.
-/
import proofs.«106949_g26190710571470_cont_sun_m_625_26_alg».proof.Proof.KernelIdeal.Body
import Idealize.ShloMosaic.Lib.Pipeline.Frame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays are four: two of the five windows read the weights. -/
theorem arrRefs_eq : Finset.univ.image (Pipeline.arrRef spec0) = {main_arg0, main_arg1, main_call0_v0, main_v0} := by decide

/-- The four buffers one by one. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_arg0) ↦{fullShare} W main_arg0) ∗ (((c.tc : Thread nD τ).loc main_arg1) ↦{fullShare} W main_arg1)
          ∗ (((c.tc : Thread nD τ).loc main_call0_v0) ↦{fullShare} W main_call0_v0) ∗ (((c.tc : Thread nD τ).loc main_v0) ↦{fullShare} W main_v0)) := by
  unfold Pipeline.arrBufs
  rw [arrRefs_eq, bigSep_insert (by decide), bigSep_insert (by decide), bigSep_insert (by decide), bigSep_singleton]
  rfl

/-- The shares the proof data hold the arrays at. -/
theorem share0 (c : Dev nD) : (dats m 0 c).share 0 = fullShare := rfl
theorem share1 (c : Dev nD) : (dats m 0 c).share 1 = fullShare.left := rfl
theorem share2 (c : Dev nD) : (dats m 0 c).share 2 = fullShare.right := rfl
theorem share3 (c : Dev nD) : (dats m 0 c).share 3 = fullShare := rfl
theorem share4 (c : Dev nD) : (dats m 0 c).share 4 = fullShare := rfl

/-- The distinct buffers behind the arrays, each whole at the full share at the entry contents, make the proof data's
    arrays at entry: the weights' buffer split between windows 1 and 2. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  rw [(arr_whole0 0).set_eq_univ, (arr_whole0 1).set_eq_univ, (arr_whole0 3).set_eq_univ, (arr_whole0 4).set_eq_univ,
    share0, share1, share2, share3, share4]
  iintro ⟨H0, H1, H3, H4⟩
  ihave H12 := (pointsTo_share (PosShare.mem_left_op_right fullShare)).1 $$ H1
  icases H12 with ⟨H1, H2⟩
  isplitl [H0]; · iexact H0
  isplitl [H1]; · iexact H1
  isplitl [H2]; · iexact H2
  isplitl [H3]; · iexact H3
  iexact H4

set_option backward.isDefEq.respectTransparency.types false in
/-- At the compiled mesh, for any values, from any memory with zero counters: every weakly fair execution of the
    program terminates, and every final state has every array of the pipeline at what the proof data compute and the
    bias argument as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      show _ ⊢ Pipeline.scopedRest spec0 c
      iintro ⟨-, H⟩; iexact H)
    (hout := fun c => by
      show Pipeline.scopedRest spec0 c ⊢ _
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨fun w => (h c).1 w, (h c).2⟩)

/-- info: 'Cert.KernelIdeal.Fr.run_main' depends on axioms: [propext, Classical.choice, Quot.sound] -/
#guard_msgs in #print axioms run_main

/-- The three argument arrays end unchanged: the input and the weights are input windows' arrays, never written;
    the bias bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 rfl (by decide))).trans (V_main_arg2 m c)⟩) (run_main m ρ)

end Cert.KernelIdeal.Fr

end
-- ==== Proof.KernelIdeal.Blocks.lean ====
/-
  Where a block's entry sits in its array. Grid point t is (group g, contraction step κ) = (t / 4, t mod 4):
  the input slab is rows 1024 κ .. 1024 κ + 1023 of group g's input, the two weight half-slabs the same rows of
  group g's weights at output features 0..2047 and 2048..4095, the bias row is group g's, and the output block is
  group g's whole [4096, 256] result.
-/
import proofs.«106949_g26190710571470_cont_sun_m_625_26_alg».proof.Proof.KernelIdeal.Run
import Idealize.ShloMosaic.Lib.Pipeline.Value
import Idealize.ShloMosaic.Lib.ValueIdx
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The printed index maps over the grid. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = t.val % 4 ∧ win0_2.index t (2 : Fin 3) = 1
    ∧ win0_3.index t (0 : Fin 3) = t.val / 4 ∧ win0_3.index t (1 : Fin 3) = 0 ∧ win0_3.index t (2 : Fin 3) = 0
    ∧ win0_4.index t (0 : Fin 3) = t.val / 4 ∧ win0_4.index t (1 : Fin 3) = 0 ∧ win0_4.index t (2 : Fin 3) = 0 :=
  (by decide +kernel : ∀ t : Fin grid0.N, _)

/-- The input slab's entry (0, k, q) at point t is the input's entry (g, 1024 κ + k, q). -/
theorem iblk0_apply (c : Dev nD) (t : Fin cfg0.N) (g : Fin 4) (i : Fin 4096) (k : Fin 1024) (q : Fin 256)
    (hg : g.val = t.val / 4) (hi : i.val = 1024 * (t.val % 4) + k.val) :
    (iblk m c 0 t : Vec F S1x1024x256 .f32) (ix3 (0 : Fin 1) k q) = V m c main_arg0 (ix3 g i q) := by
  obtain ⟨e00, e01, e02, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = g.val; omega
  | ⟨1, _⟩ => show win0_0.index t (1 : Fin 3) * 1024 + 1 * k.val = i.val; omega
  | ⟨2, _⟩ => show win0_0.index t (2 : Fin 3) * 256 + 1 * q.val = q.val; omega

/-- The left weight half-slab's entry (0, k, r) is the weights' entry (g, 1024 κ + k, r). -/
theorem iblk1_apply (c : Dev nD) (t : Fin cfg0.N) (g : Fin 4) (i : Fin 4096) (k : Fin 1024) (r : Fin 2048) (o : Fin 4096)
    (hg : g.val = t.val / 4) (hi : i.val = 1024 * (t.val % 4) + k.val) (ho : o.val = r.val) :
    (iblk m c 1 t : Vec F S1x1024x2048 .f32) (ix3 (0 : Fin 1) k r) = V m c main_arg1 (ix3 g i o) := by
  obtain ⟨-, -, -, e10, e11, e12, -⟩ := idx_facts t
  unfold iblk
  rw [View.read_apply]
  show V m c main_arg1 _ = V m c main_arg1 _
  congr 1
  funext a
  apply Fin.ext
  match a with
  | ⟨0, _⟩ => show win0_1.index t (0 : Fin 3) * 1 + 1 * 0 = g.val; omega
  | ⟨1, _⟩ => show win0_1.index t (1 : Fin 3) * 1024 + 1 * k.val = i.val; omega
  | ⟨2, _⟩ => show win0_1.index t (2 : Fin 3) * 2048 + 1 * r.val = o.val; omega

/-- The right weight half-slab's entry (0, k, r) is the weights' entry (g, 1024 κ + k, 2048 + r). -/
theorem iblk2_apply (c : Dev nD) (t : Fin cfg0.N) (g : Fin 4) (i : Fin 4096) (k : Fin 1024) (r : Fin 2048) (o : Fin 4096)
    (hg : g.val = t.val / 4) (hi : i.val = 1024 * (t.val % 4) + k.val) (ho : o.val = 2048 + r.val) :
    (iblk m c 2 t : Vec F S1x1024x2048 .f32) (ix3 (0 : Fin 1) k r) = V m c main_arg1 (ix3 g i o) := by
  obtain ⟨-, -, -, -, -, -, e20, e21, e22, -⟩ := idx_facts t
  unfold iblk
  rw [View.read_apply]
  show V m c main_arg1 _ = V m c main_arg1 _
  congr 1
  funext a
  apply Fin.ext
  match a with
  | ⟨0, _⟩ => show win0_2.index t (0 : Fin 3) * 1 + 1 * 0 = g.val; omega
  | ⟨1, _⟩ => show win0_2.index t (1 : Fin 3) * 1024 + 1 * k.val = i.val; omega
  | ⟨2, _⟩ => show win0_2.index t (2 : Fin 3) * 2048 + 1 * r.val = o.val; omega

/-- The bias row's entry (0, 0, o) is the recast bias's entry (g, 0, o). -/
theorem iblk3_apply (c : Dev nD) (t : Fin cfg0.N) (g : Fin 4) (o : Fin 4096) (hg : g.val = t.val / 4) :
    (iblk m c 3 t : Vec F S1x1x4096 .f32) (ix3 (0 : Fin 1) (0 : Fin 1) o) = V m c main_call0_v0 (ix3 g (0 : Fin 1) o) := by
  obtain ⟨-, -, -, -, -, -, -, -, -, e30, e31, e32, -⟩ := idx_facts t
  unfold iblk
  rw [View.read_apply]
  show V m c main_call0_v0 _ = V m c main_call0_v0 _
  congr 1
  funext a
  apply Fin.ext
  match a with
  | ⟨0, _⟩ => show win0_3.index t (0 : Fin 3) * 1 + 1 * 0 = g.val; omega
  | ⟨1, _⟩ => show win0_3.index t (1 : Fin 3) * 1 + 1 * 0 = 0; omega
  | ⟨2, _⟩ => show win0_3.index t (2 : Fin 3) * 4096 + 1 * o.val = o.val; omega

/-- The recast bias at (g, 0, o) is the bias argument at (g, o, 0): the one host operation before the region is a
    reshape of [4, 4096, 1] to [4, 1, 4096], which keeps the row-major position. -/
theorem V_bias (c : Dev nD) (g : Fin 4) (o : Fin 4096) :
    V m c main_call0_v0 (ix3 g (0 : Fin 1) o) = m ((c : Thread nD τ).loc main_arg2) (ix3 g o (0 : Fin 1)) := by
  have e : (V m c main_call0_v0 : S4x1x4096.Idx → Elt F .f32)
      = shapeCast S4x1x4096 (m ((c : Thread nD τ).loc main_arg2)) shapeCasts_S4x4096x1_S4x1x4096 := by
    dsimp only [V, hostOps0]; after_results; rfl
  rw [e]
  exact shapeCast_apply _ _ (ix3 g (0 : Fin 1) o) (ix3 g o (0 : Fin 1)) (by
    rw [Shape.rowMajor_val_three, Shape.rowMajor_val_three]
    show (g.val * 4096 + o.val) * 1 + 0 = (g.val * 1 + 0) * 4096 + o.val
    omega)

end Cert.KernelIdeal.Fr

end
-- ==== Proof.KernelIdeal.Fold.lean ====
/-
  The output block after every grid point, in closed form, at the exact values. For group g, output feature o and
  column q write  f(i) = W(g, i, o) · X(g, i, q)  for the term of contraction row i (zero past row 4095). After the
  point (g, κ) the block's entry (0, o, q) is
        Σ_{i < 1024 (κ + 1)} f(i)  +  b(g, o)
  — by induction on the point: the group's first step stores its 1024 terms plus the bias, each later step adds its
  own 1024 terms to the running entry, and addition of extended reals is associative and commutative, so the bias
  added first may be written last. Nothing here needs the inputs to be finite.
-/
import proofs.«106949_g26190710571470_cont_sun_m_625_26_alg».proof.Proof.KernelIdeal.Steps
import proofs.«106949_g26190710571470_cont_sun_m_625_26_alg».proof.Proof.KernelIdeal.Blocks

set_option maxRecDepth 16384

noncomputable section

namespace Cert.KernelIdeal.Fr

open Cert.KernelIdeal Cert.KernelIdeal.Gen
open Idealize.ShloMosaic Idealize.ShloMosaic.TcCoe
open Idealize.SL.Sem
open Idealize.ShloMosaic.Pipeline (Dat)
open Idealize.ShloMosaic.ValueIdx

variable (m : (ℓ : Loc nD τ sig) → Buf (Elt Ideal) ℓ)

theorem grp_lt {n : ℕ} (hn : n < cfg0.N) : n / 4 < 4 := by
  have h16 : cfg0.N = 16 := N_0
  omega

/-- The three arrays the region finds, as functions into the extended reals. -/
def Xarr (c : Dev nD) : S4x4096x256.Idx → EReal := V m c main_arg0
def Warr (c : Dev nD) : S4x4096x4096.Idx → EReal := V m c main_arg1
def Barr (c : Dev nD) : S4x1x4096.Idx → EReal := V m c main_call0_v0

/-- The term of contraction row `i` of group `g` at output feature `o`, column `q` (zero past the last row). -/
def term (c : Dev nD) (g : Fin 4) (o : Fin 4096) (q : Fin 256) (i : ℕ) : EReal :=
  if h : i < 4096 then Warr m c (ix3 g (⟨i, h⟩ : Fin 4096) o) * Xarr m c (ix3 g (⟨i, h⟩ : Fin 4096) q) else 0

/-- The running entry after contraction step `κ` of group `g`. -/
def accAt (c : Dev nD) (g : Fin 4) (κ : ℕ) (o : Fin 4096) (q : Fin 256) : EReal :=
  (∑ i ∈ Finset.range (1024 * (κ + 1)), term m c g o q i) + Barr m c (ix3 g (0 : Fin 1) o)

/-- The product a point contributes is its 1024 terms. -/
theorem step_eq (c : Dev nD) (t : Fin cfg0.N) (g : Fin 4) (hg : g.val = t.val / 4) (o : Fin 4096) (q : Fin 256) :
    stepSum (iblk m c 0 t) (iblk m c 1 t) (iblk m c 2 t) o q
      = ∑ x ∈ Finset.range 1024, term m c g o q (1024 * (t.val % 4) + x) := by
  have hN : t.val < 16 := lt_of_lt_of_eq t.isLt (show cfg0.N = 16 from N_0)
  rw [Finset.sum_range]
  by_cases h : o.val < 2048
  · refine (stepSum_lo (iblk m c 0 t) (iblk m c 1 t) (iblk m c 2 t) o q ⟨o.val, h⟩ rfl).trans ?_
    refine Finset.sum_congr rfl fun k _ => ?_
    have hi : 1024 * (t.val % 4) + k.val < 4096 := by have := k.isLt; omega
    unfold term
    rw [dif_pos hi]
    exact congrArg₂ (· * ·) (iblk1_apply m c t g ⟨_, hi⟩ k ⟨o.val, h⟩ o hg rfl rfl) (iblk0_apply m c t g ⟨_, hi⟩ k q hg rfl)
  · have ho : o.val - 2048 < 2048 := by have := o.isLt; omega
    refine (stepSum_hi (iblk m c 0 t) (iblk m c 1 t) (iblk m c 2 t) o q ⟨o.val - 2048, ho⟩ (by show o.val = 2048 + (o.val - 2048); omega)).trans ?_
    refine Finset.sum_congr rfl fun k _ => ?_
    have hi : 1024 * (t.val % 4) + k.val < 4096 := by have := k.isLt; omega
    unfold term
    rw [dif_pos hi]
    exact congrArg₂ (· * ·) (iblk2_apply m c t g ⟨_, hi⟩ k ⟨o.val - 2048, ho⟩ o hg rfl (by show o.val = 2048 + (o.val - 2048); omega))
      (iblk0_apply m c t g ⟨_, hi⟩ k q hg rfl)

/-- The partial sum through step κ is the one through step κ − 1 plus step κ's 1024 terms. -/
theorem partial_succ (f : ℕ → EReal) (κ : ℕ) :
    ∑ i ∈ Finset.range (1024 * (κ + 1 + 1)), f i
      = (∑ i ∈ Finset.range (1024 * (κ + 1)), f i) + ∑ x ∈ Finset.range 1024, f (1024 * (κ + 1) + x) := by
  rw [show 1024 * (κ + 1 + 1) = 1024 * (κ + 1) + 1024 by ring, Finset.sum_range_add]

/-- A group's first step leaves its own 1024 terms plus the bias. -/
theorem firstStep (c : Dev nD) (t : Fin cfg0.N) (h0 : t.val % 4 = 0) (y : S1x4096x256.Idx) :
    GA (iblk m c 0 t) (iblk m c 1 t) (iblk m c 2 t) (iblk m c 3 t) y
      = accAt m c ⟨t.val / 4, grp_lt t.isLt⟩ (t.val % 4) (y 1) (y 2) := by
  unfold GA accAt
  rw [step_eq m c t ⟨t.val / 4, grp_lt t.isLt⟩ rfl (y 1) (y 2), iblk3_apply m c t ⟨t.val / 4, grp_lt t.isLt⟩ (y 1) rfl, h0]
  try simp only [Nat.mul_zero, Nat.zero_add, Nat.mul_one]
  try rfl

/-- A later step adds its 1024 terms to the running entry; the bias, added at the first step, stays last. -/
theorem laterStep (c : Dev nD) (t : Fin cfg0.N) (h0 : ¬ t.val % 4 = 0) (y : S1x4096x256.Idx)
    (xo : Vec Ideal S1x4096x256 .f32)
    (hxo : xo y = accAt m c ⟨(t.val - 1) / 4, grp_lt (Nat.lt_of_le_of_lt (Nat.sub_le _ _) t.isLt)⟩ ((t.val - 1) % 4) (y 1) (y 2)) :
    GB (iblk m c 0 t) (iblk m c 1 t) (iblk m c 2 t) xo y
      = accAt m c ⟨t.val / 4, grp_lt t.isLt⟩ (t.val % 4) (y 1) (y 2) := by
  have hN : t.val < 16 := lt_of_lt_of_eq t.isLt (show cfg0.N = 16 from N_0)
  have hg : (⟨(t.val - 1) / 4, grp_lt (Nat.lt_of_le_of_lt (Nat.sub_le _ _) t.isLt)⟩ : Fin 4) = ⟨t.val / 4, grp_lt t.isLt⟩ :=
    Fin.ext (by show (t.val - 1) / 4 = t.val / 4; omega)
  have hk : t.val % 4 = (t.val - 1) % 4 + 1 := by omega
  unfold GB
  rw [hxo, hg, step_eq m c t ⟨t.val / 4, grp_lt t.isLt⟩ rfl (y 1) (y 2)]
  unfold accAt
  rw [hk, partial_succ, add_right_comm]

/-- The output block after every point. -/
theorem outsAt_eq (c : Dev nD) : ∀ (n : ℕ) (hn : n < cfg0.N) (y : S1x4096x256.Idx),
    outsAt m c n hn y = accAt m c ⟨n / 4, grp_lt hn⟩ (n % 4) (y 1) (y 2)
  | 0, hn, y => by
    rw [outsAt_A m c ⟨0, hn⟩ rfl, outA_eq]
    exact firstStep m c ⟨0, hn⟩ rfl y
  | n + 1, hn, y => by
    by_cases h0 : (n + 1) % 4 = 0
    · rw [outsAt_A m c ⟨n + 1, hn⟩ h0, outA_eq]
      exact firstStep m c ⟨n + 1, hn⟩ h0 y
    · rw [outsAt_B m c ⟨n + 1, hn⟩ h0, outB_eq]
      exact laterStep m c ⟨n + 1, hn⟩ h0 y (outsAt m c n (Nat.lt_of_succ_lt hn)) (outsAt_eq c n (Nat.lt_of_succ_lt hn) y)

end Cert.KernelIdeal.Fr

end
-- ==== Proof.Spec.lean ====
/-
  The function both programs compute, over the extended reals: for inputs X [4, 4096, 256], weights W [4, 4096, 4096]
  and bias b [4, 4096, 1],
        out(g, o, c) = Σ_{i < 4096} W(g, i, o) · X(g, i, c) + b(g, o, 0)
  — per group the transposed weights times the inputs, plus the bias broadcast along the columns.
-/
import Idealize.ShloMosaic.PureOps.Ideal
import Idealize.ShloMosaic.Lib.ValueIdx

noncomputable section

namespace Cert.Spec

open Idealize.ShloMosaic Idealize.ShloMosaic.ValueIdx

/-- The per-group transposed product plus bias, entry by entry. -/
def spec (X : (⟨3, ![4, 4096, 256]⟩ : Shape).Idx → EReal) (W : (⟨3, ![4, 4096, 4096]⟩ : Shape).Idx → EReal)
    (b : (⟨3, ![4, 4096, 1]⟩ : Shape).Idx → EReal) : (⟨3, ![4, 4096, 256]⟩ : Shape).Idx → EReal :=
  fun i => (∑ k : Fin 4096, W (ix3 (i 0) k (i 1)) * X (ix3 (i 0) k (i 2))) + b (ix3 (i 0) (i 1) (0 : Fin 1))

end Cert.Spec

end
-- ==== Proof.KernelIdeal.Final.lean ====
/-
  The idealized kernel's result array after the run, as one function of the three argument arrays:
        out(g, o, q) = Σ_{i < 4096} W(g, i, o) · X(g, i, q) + b(g, o, 0).
  The output block is written back once per group, after its fourth contraction step (points ≡ 3 mod 4), when it
  holds the sum over all 4096 rows plus the bias; group g's block is rows [g] of the result, and the four blocks
  tile it.
-/
import proofs.«106949_g26190710571470_cont_sun_m_625_26_alg».proof.Proof.KernelIdeal.Fold
import proofs.«106949_g26190710571470_cont_sun_m_625_26_alg».proof.Proof.Spec

set_option maxRecDepth 16384

noncomputable section

namespace Cert.KernelIdeal.Fr

open Cert.KernelIdeal Cert.KernelIdeal.Gen
open Idealize.ShloMosaic Idealize.ShloMosaic.TcCoe
open Idealize.SL.Sem
open Idealize.ShloMosaic.Pipeline (Dat)
open Idealize.ShloMosaic.ValueIdx

variable (m : (ℓ : Loc nD τ sig) → Buf (Elt Ideal) ℓ) (ρ : Dev nD → PrngReg)

/-- The result array's contents after the run, through the running entries: group `i 0` after its last step. -/
def result (c : Dev nD) : Buf (Elt Ideal) ((c : Thread nD τ).loc main_v0) :=
  fun i => accAt m c (i 0) 3 (i 1) (i 2)

/-- After a group's last step the running entry is the full contraction plus the bias. -/
theorem result_eq (c : Dev nD) :
    result m c = Cert.Spec.spec (m ((c : Thread nD τ).loc main_arg0)) (m ((c : Thread nD τ).loc main_arg1)) (m ((c : Thread nD τ).loc main_arg2)) := by
  funext i
  unfold result accAt Cert.Spec.spec
  rw [show 1024 * (3 + 1) = 4096 from rfl, Finset.sum_range]
  refine congrArg₂ (· + ·) (Finset.sum_congr rfl fun k _ => ?_) ?_
  · unfold term
    rw [dif_pos k.isLt]
    exact congrArg₂ (· * ·) (congrFun (V_main_arg1 m c) _) (congrFun (V_main_arg0 m c) _)
  · exact V_bias m c (i 0) (i 1)

/-- An index of the result is in point `t`'s block iff each coordinate is in the block's range on its axis. -/
theorem mem_blk4 (t : Fin cfg0.N) (i : S4x4096x256.Idx) :
    i ∈ ((cfg0.win 4).blk t).view.set ↔ ∀ a : Fin 3, win0_4.index t a * S1x4096x256.size a ≤ (i a).val ∧ (i a).val < win0_4.index t a * S1x4096x256.size a + S1x4096x256.size a := by
  show i ∈ ((View.whole main_v0).slice (win0_4.rect t)).set ↔ _
  rw [View.set_slice_whole, Rect.mem_set_unit]
  exact Iff.rfl

/-- What a group's write-back writes is that group's block of the function. -/
theorem flushed_eq (c : Dev nD) (t : Fin cfg0.N) (hf : (cfg0.win 4).flush t = true) :
    (dats m 0 c).flushed 4 t = ((cfg0.win 4).blk t).view.read (Elt Ideal) (result m c) := by
  have h3 : t.val % 4 = 3 := (flush0_4 t).mp hf
  obtain ⟨-, -, -, -, -, -, -, -, -, -, -, -, e40, e41, e42⟩ := idx_facts t
  show (cfg0.win 4).cut (grid0.coords t) ((dats m 0 c).after 4 t) = _
  rw [after4]
  funext j
  show outsAt m c t.val t.isLt j = result m c (((cfg0.win 4).blk t).view.emb j)
  rw [outsAt_eq m c t.val t.isLt j]
  unfold result
  have hj0 : (j 0).val < 1 := (j 0).isLt
  have e0 : (((cfg0.win 4).blk t).view.emb j) 0 = (⟨t.val / 4, grp_lt t.isLt⟩ : Fin 4) :=
    Fin.ext (by show win0_4.index t (0 : Fin 3) * 1 + 1 * (j 0).val = t.val / 4; omega)
  have e1 : (((cfg0.win 4).blk t).view.emb j) 1 = j 1 :=
    Fin.ext (by show win0_4.index t (1 : Fin 3) * 4096 + 1 * (j 1).val = (j 1).val; omega)
  have e2 : (((cfg0.win 4).blk t).view.emb j) 2 = j 2 :=
    Fin.ext (by show win0_4.index t (2 : Fin 3) * 256 + 1 * (j 2).val = (j 2).val; omega)
  rw [e0, e1, e2, h3]

/-- Every index of the result is in the block of its group's last point. -/
theorem covered (i : S4x4096x256.Idx) : ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 256 := (i 2).isLt
  have hN : grid0.N = 16 := N_0
  have ht : 4 * (i 0).val + 3 < cfg0.N := by show 4 * (i 0).val + 3 < grid0.N; omega
  refine ⟨⟨4 * (i 0).val + 3, ht⟩, (flush0_4 _).mpr (by show (4 * (i 0).val + 3) % 4 = 3; omega), ?_⟩
  obtain ⟨-, -, -, -, -, -, -, -, -, -, -, -, e40, e41, e42⟩ := idx_facts ⟨4 * (i 0).val + 3, ht⟩
  have e40' : win0_4.index ⟨4 * (i 0).val + 3, ht⟩ (0 : Fin 3) = (4 * (i 0).val + 3) / 4 := e40
  rw [mem_blk4]
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 4096 ≤ (i 1).val ∧ (i 1).val < win0_4.index _ (1 : Fin 3) * 4096 + 4096; omega
  | ⟨2, _⟩ => show win0_4.index _ (2 : Fin 3) * 256 ≤ (i 2).val ∧ (i 2).val < win0_4.index _ (2 : Fin 3) * 256 + 256; omega

/-- The result array after the run. -/
theorem final (c : Dev nD) : (dats m 0 c).arrAt 4 cfg0.N = result m c :=
  (dats m 0 c).arrAt_eq_of_cover 4 (result m c) (flushed_eq m c) covered

/-- The run, read: the result array at the function of the arguments, the arguments unchanged. -/
theorem run : θ_run defs (onTc (τ := τ) (main (F := Ideal))) ⟨m, fun _ => 0, ρ⟩ fun r => ∀ c : Dev nD,
      r.2.mem ((c.tc : Thread nD τ).loc main_v0)
        = Cert.Spec.spec (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 4).trans ((final m c).trans (result_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 rfl (by decide))).trans (V_main_arg2 m c)⟩) (run_main m ρ)

end Cert.KernelIdeal.Fr

end
-- ==== Proof.RefIsSpec.lean ====
/-
  The reference computes the specification: its three host operations are a batched contraction of the weights'
  and the inputs' second axes (entry (g, o, c) the sum over i of W(g, i, o) · X(g, i, c)), the bias broadcast along
  the columns (entry (g, o, c) is b(g, o, 0)), and their sum — read entry by entry through the generated stages.
-/
import proofs.«106949_g26190710571470_cont_sun_m_625_26_alg».proof.Proof.Gen.ReferenceIdeal.Read
import proofs.«106949_g26190710571470_cont_sun_m_625_26_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The reference's result stage is the specification of its three arguments. -/
theorem ref_eq (x0 : (⟨S4x4096x256, .f32⟩ : BufTy).Contents (Elt Ideal)) (x1 : (⟨S4x4096x4096, .f32⟩ : BufTy).Contents (Elt Ideal))
    (x2 : (⟨S4x4096x1, .f32⟩ : BufTy).Contents (Elt Ideal)) :
    val_main_v2 (F := Ideal) x0 x1 x2 = Cert.Spec.spec x0 x1 x2 := by
  funext i
  have el : ∀ k : Fin 4096, lidx_main_v0 i k = ix3 (i 0) k (i 1) := fun k => funext fun a => by
    match a with
    | ⟨0, _⟩ => rfl
    | ⟨1, _⟩ => rfl
    | ⟨2, _⟩ => rfl
  have er : ∀ k : Fin 4096, ridx_main_v0 i k = ix3 (i 0) k (i 2) := fun k => funext fun a => by
    match a with
    | ⟨0, _⟩ => rfl
    | ⟨1, _⟩ => rfl
    | ⟨2, _⟩ => rfl
  have eb : idx_main_v1 i = ix3 (i 0) (i 1) (0 : Fin 1) := funext fun a => by
    match a with
    | ⟨0, _⟩ => rfl
    | ⟨1, _⟩ => rfl
    | ⟨2, _⟩ => rfl
  rw [val_main_v2_apply, val_main_v0_apply, val_main_v1_apply]
  simp only [el, er, eb]
  rfl

end Cert.ReferenceIdeal.RefValue

end
-- ==== Proof.lean ====
/-
  The kernel computes, for each of four groups, the transposed [4096, 4096] weights times the [4096, 256] inputs plus a
  bias column, by streaming the weights in four slabs of 1024 contraction rows (each as a left and a right half of the
  output features, two windows on the one weight array) and accumulating in the output block: the first slab's product
  plus the bias is stored, each later slab's product is added. The reference is one batched contraction plus the
  broadcast bias. Over the extended reals both are
        out(g, o, c) = Σ_{i < 4096} W(g, i, o) · X(g, i, c) + b(g, o, 0):
  the kernel's four partial sums, with the bias added after the first, regroup to the full sum with the bias last, by
  associativity and commutativity of addition alone — no product is distributed and nothing is cancelled, so the inputs'
  finiteness is never used.
  The frames: every run of either kernel program terminates without a fault and leaves the three arguments as launched
  (the inputs and the weights are read-only windows' arrays, the bias is only recast into a fresh buffer); the
  reference's frame is its run with the result dropped. The idealization rewrote nothing, so there is nothing to
  preserve.
-/
import proofs.«106949_g26190710571470_cont_sun_m_625_26_alg».proof.Defs
import proofs.«106949_g26190710571470_cont_sun_m_625_26_alg».proof.Proof.Gen.Kernel
import proofs.«106949_g26190710571470_cont_sun_m_625_26_alg».proof.Proof.Gen.KernelIdeal
import proofs.«106949_g26190710571470_cont_sun_m_625_26_alg».proof.Proof.Gen.ReferenceIdeal
import proofs.«106949_g26190710571470_cont_sun_m_625_26_alg».proof.Proof.Gen.Pre_finite_inputs
import proofs.«106949_g26190710571470_cont_sun_m_625_26_alg».proof.Proof.Gen.ReferenceIdeal.Run
import proofs.«106949_g26190710571470_cont_sun_m_625_26_alg».proof.Proof.Gen.ReferenceIdeal.Read
import proofs.«106949_g26190710571470_cont_sun_m_625_26_alg».proof.Proof.Kernel.Run
import proofs.«106949_g26190710571470_cont_sun_m_625_26_alg».proof.Proof.KernelIdeal.Final
import proofs.«106949_g26190710571470_cont_sun_m_625_26_alg».proof.Proof.RefIsSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the specification of arguments that agree. -/
theorem algebraic : Cert.algebraic_KernelIdeal_ReferenceIdeal := by
  intro m ρ m' ρ' _ hagree
  refine ⟨fun c => Cert.Spec.spec (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Fr.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v2_eq, Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
